-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x1024 : Shape := ⟨3, ![8, 8192, 1024]⟩
abbrev S64x256 : Shape := ⟨2, ![64, 256]⟩
abbrev S64x1024 : Shape := ⟨2, ![64, 1024]⟩
abbrev S_ : Shape := ⟨0, ![]⟩

class Facts : Prop where
  bcast_S_S8x8192x1024 : S_.BroadcastsInDim S8x8192x1024 (![] : Fin 0 → Fin S8x8192x1024.rank)
  reducesTo_S8x8192x1024_S_d0_1_2 : S8x8192x1024.ReducesTo [0, 1, 2] S_
  h_S_ : 0 < S_.numel
  bcast_S_S64x256 : S_.BroadcastsInDim S64x256 (![] : Fin 0 → Fin S64x256.rank)
  reducesTo_S64x256_S_d0_1 : S64x256.ReducesTo [0, 1] S_
  bcast_S_S64x1024 : S_.BroadcastsInDim S64x1024 (![] : Fin 0 → Fin S64x1024.rank)
  reducesTo_S64x1024_S_d0_1 : S64x1024.ReducesTo [0, 1] S_

variable [Facts]

def fn_part1 {F : FTy → Type} [FloatOps F] (main_arg4 : FVec F S64x1024 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S64x1024 .f32 := Host.absf main_arg4
  let main_cst_6 : FVec F S_ .f32 := constant S_ .f32 0x7F800000#32
  let main_v20 : FVec F S64x1024 .f32 := broadcastInDim S64x1024 ![] bcast_S_S64x1024 main_cst_6
  let main_v21 : IVec S64x1024 1 := cmpf .olt main_v19 main_v20
  let main_c_7 : IVec S_ 1 := constantI S_ 1 1#1
  let main_v22 : IVec S_ 1 := (fun x v => Host.reduce IntOp.andi x v reducesTo_S64x1024_S_d0_1 h_S_) main_v21 main_c_7
  let main_v23 : IVec S_ 1 := andi main_v18 main_v22
  main_v23

def fn {F : FTy → Type} [FloatOps F] (main_arg0 : FVec F S8x8192x1024 .f32) (main_arg1 : FVec F S64x256 .f32) (main_arg2 : FVec F S64x256 .f32) (main_arg3 : FVec F S64x1024 .f32) (main_arg4 : FVec F S64x1024 .f32) : IVec S_ 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_c : IVec S_ 1 := constantI S_ 1 1#1
  let main_v3 : IVec S_ 1 := (fun x v => Host.reduce IntOp.andi x v reducesTo_S8x8192x1024_S_d0_1_2 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_v13 main_v16
-- ==== Kernel.lean ====
abbrev S8x8192x1024 : Shape := ⟨3, ![8, 8192, 1024]⟩
abbrev S64x256 : Shape := ⟨2, ![64, 256]⟩
abbrev S64x1024 : Shape := ⟨2, ![64, 1024]⟩
abbrev S64x64 : Shape := ⟨2, ![64, 64]⟩
abbrev S8x64x64 : Shape := ⟨3, ![8, 64, 64]⟩
abbrev S1x2048x1024 : Shape := ⟨3, ![1, 2048, 1024]⟩
abbrev S1x64x64 : Shape := ⟨3, ![1, 64, 64]⟩
abbrev S64x1 : Shape := ⟨2, ![64, 1]⟩
abbrev S2048x1024 : Shape := ⟨2, ![2048, 1024]⟩
abbrev S64x2048 : Shape := ⟨2, ![64, 2048]⟩
abbrev S2048x64 : Shape := ⟨2, ![2048, 64]⟩
abbrev S64 : Shape := ⟨1, ![64]⟩

abbrev nBuf : Space → Nat
  | .hbm => 8
  | .vmem => 9
  | .smem => 0
  | _ => 0

abbrev bufTy : (tb : Table) → Fin (tcTables nBuf tb) → BufTy
  | .hbm, ⟨0, _⟩ => ⟨S8x8192x1024, .f32⟩
  | .hbm, ⟨1, _⟩ => ⟨S64x256, .f32⟩
  | .hbm, ⟨2, _⟩ => ⟨S64x256, .f32⟩
  | .hbm, ⟨3, _⟩ => ⟨S64x1024, .f32⟩
  | .hbm, ⟨4, _⟩ => ⟨S64x1024, .f32⟩
  | .hbm, ⟨5, _⟩ => ⟨S64x64, .f32⟩
  | .hbm, ⟨6, _⟩ => ⟨S64x1024, .f32⟩
  | .hbm, ⟨7, _⟩ => ⟨S8x64x64, .f32⟩
  | .local _ .vmem, ⟨0, _⟩ => ⟨S1x2048x1024, .f32⟩
  | .local _ .vmem, ⟨1, _⟩ => ⟨S1x2048x1024, .f32⟩
  | .local _ .vmem, ⟨2, _⟩ => ⟨S64x1024, .f32⟩
  | .local _ .vmem, ⟨3, _⟩ => ⟨S64x1024, .f32⟩
  | .local _ .vmem, ⟨4, _⟩ => ⟨S1x64x64, .f32⟩
  | .local _ .vmem, ⟨5, _⟩ => ⟨S1x64x64, .f32⟩
  | .local _ .vmem, ⟨6, _⟩ => ⟨S64x1, .f32⟩
  | .local _ .vmem, ⟨7, _⟩ => ⟨S64x1, .f32⟩
  | .local _ .vmem, ⟨8, _⟩ => ⟨S64x64, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v46 : BitVec 1 := Scalar.cmpi .eq arg1 c3_i32
  let v47 : BitVec 32 := Scalar.extui v46
  let c0_i32_26 : BitVec 32 := 0#32
  let v48 : BitVec 1 := Scalar.cmpi .ne v47 c0_i32_26
  v48

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  reduces_S64x2048_S64 : S64x2048.Reduces [1] S64
  shapeCasts_S64_S64x1 : S64.ShapeCasts S64x1
  broadcasts_S64x1_S64x2048 : S64x1.Broadcasts S64x2048
  broadcasts_S64x1_S64x64 : S64x1.Broadcasts S64x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  dot_S64x256_S64x256_S64x64_1_1_0_0_n_n_wf : DotDims.WF S64x256 S64x256 S64x64 [1] [1] [0] [0] [] []
  dot_S64x64_S64x1024_S64x1024_1_0_0_1_n_n_wf : DotDims.WF S64x64 S64x1024 S64x1024 [1] [0] [0] [1] [] []
  dot_S64x1024_S2048x1024_S64x2048_1_1_0_0_n_n_wf : DotDims.WF S64x1024 S2048x1024 S64x2048 [1] [1] [0] [0] [] []
  dot_S2048x1024_S64x1024_S2048x64_1_1_0_0_n_n_wf : DotDims.WF S2048x1024 S64x1024 S2048x64 [1] [1] [0] [0] [] []
  dot_S64x2048_S2048x64_S64x64_1_0_0_1_n_n_wf : DotDims.WF S64x2048 S2048x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x8192x1024.size a
  hwx0_0 : ∀ i : grid0.Coords, EltTy.bits .f32 = 32 ∨ (Rect.block (s := S8x8192x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x1024.size a
  hwx0_2 : ∀ i : grid0.Coords, EltTy.bits .f32 = 32 ∨ (Rect.block (s := S64x1024) S64x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x64.size a ≤ S8x64x64.size a
  hwx0_3 : ∀ i : grid0.Coords, EltTy.bits .f32 = 32 ∨ (Rect.block (s := S8x64x64) S1x64x64.size (cc0_transform_3 i) (hinb0_3 i)).WholeWords (EltTy.packing .f32)

variable [Facts₀]

def dot_S64x256_S64x256_S64x64_1_1_0_0_n_n : DotDims S64x256 S64x256 S64x64 where
  lhsContracting := [1]
  rhsContracting := [1]
  lhsNonContracting := [0]
  rhsNonContracting := [0]
  lhsBatch := []
  rhsBatch := []
  wf := dot_S64x256_S64x256_S64x64_1_1_0_0_n_n_wf
def dot_S64x64_S64x1024_S64x1024_1_0_0_1_n_n : DotDims S64x64 S64x1024 S64x1024 where
  lhsContracting := [1]
  rhsContracting := [0]
  lhsNonContracting := [0]
  rhsNonContracting := [1]
  lhsBatch := []
  rhsBatch := []
  wf := dot_S64x64_S64x1024_S64x1024_1_0_0_1_n_n_wf
def dot_S64x1024_S2048x1024_S64x2048_1_1_0_0_n_n : DotDims S64x1024 S2048x1024 S64x2048 where
  lhsContracting := [1]
  rhsContracting := [1]
  lhsNonContracting := [0]
  rhsNonContracting := [0]
  lhsBatch := []
  rhsBatch := []
  wf := dot_S64x1024_S2048x1024_S64x2048_1_1_0_0_n_n_wf
def dot_S2048x1024_S64x1024_S2048x64_1_1_0_0_n_n : DotDims S2048x1024 S64x1024 S2048x64 where
  lhsContracting := [1]
  rhsContracting := [1]
  lhsNonContracting := [0]
  rhsNonContracting := [0]
  lhsBatch := []
  rhsBatch := []
  wf := dot_S2048x1024_S64x1024_S2048x64_1_1_0_0_n_n_wf
def dot_S64x2048_S2048x64_S64x64_1_0_0_1_n_n : DotDims S64x2048 S2048x64 S64x64 where
  lhsContracting := [1]
  rhsContracting := [0]
  lhsNonContracting := [0]
  rhsNonContracting := [1]
  lhsBatch := []
  rhsBatch := []
  wf := dot_S64x2048_S2048x64_S64x64_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x64x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x8192x1024 : Shape := ⟨3, ![8, 8192, 1024]⟩
abbrev S64x256 : Shape := ⟨2, ![64, 256]⟩
abbrev S64x1024 : Shape := ⟨2, ![64, 1024]⟩
abbrev S64x64 : Shape := ⟨2, ![64, 64]⟩
abbrev S8x8192x64 : Shape := ⟨3, ![8, 8192, 64]⟩
abbrev S8x64x8192 : Shape := ⟨3, ![8, 64, 8192]⟩
abbrev S_ : Shape := ⟨0, ![]⟩
abbrev S8x64 : Shape := ⟨2, ![8, 64]⟩
abbrev S8x64x1 : Shape := ⟨3, ![8, 64, 1]⟩
abbrev S8x64x64 : Shape := ⟨3, ![8, 64, 64]⟩

abbrev nBuf : Space → Nat
  | .hbm => 28
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S64x256, .f32⟩
  | .hbm, ⟨2, _⟩ => ⟨S64x256, .f32⟩
  | .hbm, ⟨3, _⟩ => ⟨S64x1024, .f32⟩
  | .hbm, ⟨4, _⟩ => ⟨S64x1024, .f32⟩
  | .hbm, ⟨5, _⟩ => ⟨S64x64, .f32⟩
  | .hbm, ⟨6, _⟩ => ⟨S8x8192x64, .f32⟩
  | .hbm, ⟨7, _⟩ => ⟨S8x8192x64, .f32⟩
  | .hbm, ⟨8, _⟩ => ⟨S8x8192x64, .f32⟩
  | .hbm, ⟨9, _⟩ => ⟨S8x64x8192, .f32⟩
  | .hbm, ⟨10, _⟩ => ⟨S_, .f32⟩
  | .hbm, ⟨11, _⟩ => ⟨S8x64x8192, .f32⟩
  | .hbm, ⟨12, _⟩ => ⟨S8x64x8192, .f32⟩
  | .hbm, ⟨13, _⟩ => ⟨S_, .f32⟩
  | .hbm, ⟨14, _⟩ => ⟨S8x64, .f32⟩
  | .hbm, ⟨15, _⟩ => ⟨S_, .f32⟩
  | .hbm, ⟨16, _⟩ => ⟨S8x64, .f32⟩
  | .hbm, ⟨17, _⟩ => ⟨S8x64, .f32⟩
  | .hbm, ⟨18, _⟩ => ⟨S8x64x1, .f32⟩
  | .hbm, ⟨19, _⟩ => ⟨S8x64x8192, .f32⟩
  | .hbm, ⟨20, _⟩ => ⟨S8x64x8192, .f32⟩
  | .hbm, ⟨21, _⟩ => ⟨S8x64x8192, .f32⟩
  | .hbm, ⟨22, _⟩ => ⟨S_, .f32⟩
  | .hbm, ⟨23, _⟩ => ⟨S8x64, .f32⟩
  | .hbm, ⟨24, _⟩ => ⟨S8x64x1, .f32⟩
  | .hbm, ⟨25, _⟩ => ⟨S8x64x8192, .f32⟩
  | .hbm, ⟨26, _⟩ => ⟨S8x64x8192, .f32⟩
  | .hbm, ⟨27, _⟩ => ⟨S8x64x64, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  transposes_S8x8192x64_S8x64x8192_0_2_1 : S8x8192x64.Transposes [0, 2, 1] S8x64x8192
  bcast_S_S8x64x8192 : S_.BroadcastsInDim S8x64x8192 (![] : Fin 0 → Fin S8x64x8192.rank)
  reducesTo_S8x64x8192_S8x64_d2 : S8x64x8192.ReducesTo [2] S8x64
  h_S_ : 0 < S_.numel
  bcast_S_S8x64 : S_.BroadcastsInDim S8x64 (![] : Fin 0 → Fin S8x64.rank)
  bcast_S8x64_S8x64x1_0_1 : S8x64.BroadcastsInDim S8x64x1 (![0, 1] : Fin 2 → Fin S8x64x1.rank)
  bcast_S8x64x1_S8x64x8192_0_1_2 : S8x64x1.BroadcastsInDim S8x64x8192 (![0, 1, 2] : Fin 3 → Fin S8x64x8192.rank)
  dot_S64x256_S64x256_S64x64_1_1_0_0_n_n_wf : DotDims.WF S64x256 S64x256 S64x64 [1] [1] [0] [0] [] []
  dot_S8x8192x1024_S64x1024_S8x8192x64_2_1_01_0_n_n_wf : DotDims.WF S8x8192x1024 S64x1024 S8x8192x64 [2] [1] [0, 1] [0] [] []
  dot_S8x8192x64_S64x64_S8x8192x64_2_1_01_0_n_n_wf : DotDims.WF S8x8192x64 S64x64 S8x8192x64 [2] [1] [0, 1] [0] [] []
  dot_S8x64x8192_S8x8192x64_S8x64x64_2_1_1_2_0_0_wf : DotDims.WF S8x64x8192 S8x8192x64 S8x64x64 [2] [1] [1] [2] [0] [0]

variable [Facts₀]

def dot_S64x256_S64x256_S64x64_1_1_0_0_n_n : DotDims S64x256 S64x256 S64x64 where
  lhsContracting := [1]
  rhsContracting := [1]
  lhsNonContracting := [0]
  rhsNonContracting := [0]
  lhsBatch := []
  rhsBatch := []
  wf := dot_S64x256_S64x256_S64x64_1_1_0_0_n_n_wf
def dot_S8x8192x1024_S64x1024_S8x8192x64_2_1_01_0_n_n : DotDims S8x8192x1024 S64x1024 S8x8192x64 where
  lhsContracting := [2]
  rhsContracting := [1]
  lhsNonContracting := [0, 1]
  rhsNonContracting := [0]
  lhsBatch := []
  rhsBatch := []
  wf := dot_S8x8192x1024_S64x1024_S8x8192x64_2_1_01_0_n_n_wf
def dot_S8x8192x64_S64x64_S8x8192x64_2_1_01_0_n_n : DotDims S8x8192x64 S64x64 S8x8192x64 where
  lhsContracting := [2]
  rhsContracting := [1]
  lhsNonContracting := [0, 1]
  rhsNonContracting := [0]
  lhsBatch := []
  rhsBatch := []
  wf := dot_S8x8192x64_S64x64_S8x8192x64_2_1_01_0_n_n_wf
def dot_S8x64x8192_S8x8192x64_S8x64x64_2_1_1_2_0_0 : DotDims S8x64x8192 S8x8192x64 S8x64x64 where
  lhsContracting := [2]
  rhsContracting := [1]
  lhsNonContracting := [1]
  rhsNonContracting := [2]
  lhsBatch := [0]
  rhsBatch := [0]
  wf := dot_S8x64x8192_S8x8192x64_S8x64x64_2_1_1_2_0_0_wf

class Facts : Prop extends Facts₀ where

variable [Facts]
-- ==== Proof.LibReal.lean ====
/-
  Real numbers among the extended reals, and the operations that keep them real.
  Part 1, scalars. An extended real is a real number, +∞ or −∞. Over the reals the ring laws hold; at the infinities distributivity
  and cancellation fail. So an identity that needs those laws is proved for real values, and a computation is shown to
  stay among the reals: sums, differences, products, maxima and finite sums of reals are real; the logistic function
  1/(1 + e^(-x)) is real everywhere (it is 0 at −∞ and 1 at +∞); a quotient by a non-zero real is real; the inverse
  square root of a positive real is real.
  Part 2, arrays at the ideal values. An array is real when every entry is. The elementwise sum, difference, product
  and maximum of real arrays are real; so is any re-indexing of one (a broadcast, a reshape, a slice, a gather: each
  entry of the result is an entry of the operand); the logistic function of any array; the host's product of two real
  arrays (each entry a finite sum of products); its sum-reduction of a real array from a real initial value (the initial
  value plus a finite sum of entries); its scatter-add of real updates into a real operand (the operand's entry plus a
  finite sum of update entries); the quotient by an array of one non-zero real; the inverse square root of an array of
  positive reals; a selection between two real arrays. An array
  every entry of which passes jnp's `isfinite` test (|x| < +∞) is real.
-/
import Idealize.ShloMosaic.PureOps.Ideal
import Idealize.ShloMosaic.PureOps.Ideal.Laws
import Idealize.ShloMosaic.Lib.ValueIdx
import Mathlib.Data.EReal.Basic

noncomputable section

namespace Cert.LibReal

open Idealize.ShloMosaic

/-- `x` is a real number: neither infinity. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negative of a real is real. -/
theorem IsReal.neg {x : EReal} (hx : IsReal x) : IsReal (-x) := by
  obtain ⟨a, rfl⟩ := hx; exact ⟨-a, (EReal.coe_neg a).symm⟩

/-- The larger of two reals is real. -/
theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩

/-- A finite sum of reals is real. -/
theorem IsReal.sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The logistic function's value is a real number at every extended real. -/
theorem isReal_logistic (x : EReal) : IsReal (Ideal.logistic x) := by
  induction x using EReal.rec with
  | bot => rw [Ideal.logistic_bot]; exact isReal_zero
  | coe r => rw [Ideal.logistic_coe]; exact isReal_coe _
  | top => rw [Ideal.logistic_top]; exact isReal_one

/-- A real divided by a non-zero real is real. -/
theorem IsReal.div_coe {x : EReal} (hx : IsReal x) {y : ℝ} (hy : y ≠ 0) : IsReal (Ideal.div x (y : EReal)) := by
  rw [Ideal.div_coe hy]; exact hx.mul (isReal_coe _)

/-- The inverse square root of a positive real is real. -/
theorem isReal_rsqrt_pos {r : ℝ} (hr : 0 < r) : IsReal (Ideal.rsqrt (r : EReal)) := by
  rw [Ideal.rsqrt_coe, if_neg (not_lt.mpr hr.le), if_neg hr.ne']; exact isReal_coe _

/-- The scale-and-shift form of a normalisation is the centred form, over the reals:
    (g·r)·x + (b − m·(g·r)) = (g·(x − m))·r + b, by distributivity. -/
theorem norm_forms (g x m r b : ℝ) :
    ((g : EReal) * r) * x + ((b : EReal) - m * ((g : EReal) * r)) = ((g : EReal) * ((x : EReal) - m)) * r + b := by
  have h : (g * r) * x + (b - m * (g * r)) = (g * (x - m)) * r + b := by ring
  exact_mod_cast congrArg (fun t : ℝ => (t : EReal)) h

/-- The same for extended reals known to be real. -/
theorem norm_forms_of_isReal {g x m r b : EReal} (hg : IsReal g) (hx : IsReal x) (hm : IsReal m) (hr : IsReal r)
    (hb : IsReal b) : (g * r) * x + (b - m * (g * r)) = (g * (x - m)) * r + b := by
  obtain ⟨g, rfl⟩ := hg; obtain ⟨x, rfl⟩ := hx; obtain ⟨m, rfl⟩ := hm; obtain ⟨r, rfl⟩ := hr; obtain ⟨b, rfl⟩ := hb
  exact norm_forms g x m r b

/-! ## Non-negative and positive reals -/

/-- `x` is a non-negative real number. -/
def IsNonneg (x : EReal) : Prop := ∃ r : ℝ, 0 ≤ r ∧ x = (r : EReal)

/-- `x` is a positive real number. -/
def IsPos (x : EReal) : Prop := ∃ r : ℝ, 0 < r ∧ x = (r : EReal)

theorem IsNonneg.isReal {x : EReal} (h : IsNonneg x) : IsReal x := by obtain ⟨r, -, e⟩ := h; exact ⟨r, e⟩
theorem IsPos.isReal {x : EReal} (h : IsPos x) : IsReal x := by obtain ⟨r, -, e⟩ := h; exact ⟨r, e⟩
theorem isNonneg_zero : IsNonneg 0 := ⟨0, le_refl _, rfl⟩

/-- The square of a real is non-negative. -/
theorem IsReal.mul_self_nonneg {x : EReal} (hx : IsReal x) : IsNonneg (x * x) := by
  obtain ⟨a, rfl⟩ := hx; exact ⟨a * a, _root_.mul_self_nonneg a, (EReal.coe_mul a a).symm⟩

/-- A sum of two non-negative reals is non-negative. -/
theorem IsNonneg.add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩

/-- A finite sum of non-negative reals is non-negative. -/
theorem IsNonneg.sum {ι : Type} (s : Finset ι) (f : ι → EReal) (h : ∀ i ∈ s, IsNonneg (f i)) : IsNonneg (∑ i ∈ s, f i) := by
  classical
  induction s using Finset.induction_on with
  | empty => rw [Finset.sum_empty]; exact isNonneg_zero
  | insert a s ha ih =>
    rw [Finset.sum_insert ha]
    exact (h a (Finset.mem_insert_self a s)).add (ih fun i hi => h i (Finset.mem_insert_of_mem hi))

/-- A non-negative real divided by a positive real is non-negative. -/
theorem IsNonneg.div_coe {x : EReal} (hx : IsNonneg x) {y : ℝ} (hy : 0 < y) : IsNonneg (Ideal.div x (y : EReal)) := by
  obtain ⟨a, ha, rfl⟩ := hx
  rw [Ideal.div_coe hy.ne']
  exact ⟨a * (1 / y), mul_nonneg ha (one_div_pos.mpr hy).le, (EReal.coe_mul a (1 / y)).symm⟩

/-- A non-negative real plus a positive real is positive. -/
theorem IsNonneg.add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩

/-- The inverse square root of a positive real is a positive real. -/
theorem IsPos.rsqrt {x : EReal} (hx : IsPos x) : IsPos (Ideal.rsqrt x) := by
  obtain ⟨r, hr, rfl⟩ := hx
  rw [Ideal.rsqrt_coe, if_neg (not_lt.mpr hr.le), if_neg hr.ne']
  exact ⟨(Real.sqrt r)⁻¹, inv_pos.mpr (Real.sqrt_pos.mpr hr), rfl⟩

/-! ## The host's finiteness test -/

/-- jnp's `isfinite` on one value, `|x| < +∞` against the word 0x7F800000: where it holds the value is a real. -/
theorem isReal_of_abs_lt_inf (x : Ideal .f32)
    (h : FloatOps.cmpf .olt (FloatOps.hostAbsf x) (FloatOps.ofBits (F := Ideal) .f32 0x7F800000#32) = 1#1) : IsReal x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  induction x using EReal.rec with
  | bot => simp at h'
  | coe r => exact isReal_coe r
  | top => simp at h'

/-! ## Arrays -/

section Arrays
variable {s t : Shape} {φ : FTy}

/-- Every entry of the array is a real number. -/
def RealVec (v : FVec Ideal s φ) : Prop := ∀ i, IsReal (v i)

theorem RealVec.addf {x y : FVec Ideal s φ} (hx : RealVec x) (hy : RealVec y) : RealVec (addf x y) :=
  fun i => (hx i).add (hy i)
theorem RealVec.subf {x y : FVec Ideal s φ} (hx : RealVec x) (hy : RealVec y) : RealVec (subf x y) :=
  fun i => (hx i).sub (hy i)
theorem RealVec.mulf {x y : FVec Ideal s φ} (hx : RealVec x) (hy : RealVec y) : RealVec (mulf x y) :=
  fun i => (hx i).mul (hy i)
theorem RealVec.maximumf {x y : FVec Ideal s φ} (hx : RealVec x) (hy : RealVec y) : RealVec (maximumf x y) :=
  fun i => (hx i).max (hy i)

/-- A constant array of a bit pattern that denotes a real. -/
theorem realVec_constant (b : BitVec φ.bits) (hb : IsReal (Ideal.ofBits φ b)) : RealVec (constant (F := Ideal) s φ b) :=
  fun _ => hb

/-- Any re-indexing of a real array is real: each entry of the result is an entry of the operand. -/
theorem RealVec.reindex {x : FVec Ideal s φ} (hx : RealVec x) (g : t.Idx → s.Idx) : RealVec (fun j => x (g j) : FVec Ideal t φ) :=
  fun j => hx (g j)

theorem RealVec.broadcastInDim {x : FVec Ideal s φ} (hx : RealVec x) (dims : Fin s.rank → Fin t.rank)
    (h : s.BroadcastsInDim t dims) : RealVec (broadcastInDim t dims h x : FVec Ideal t φ) :=
  fun j => by unfold Idealize.ShloMosaic.broadcastInDim; exact hx _

theorem RealVec.shapeCast {x : FVec Ideal s φ} (hx : RealVec x) (h : s.ShapeCasts t) : RealVec (shapeCast t x h : FVec Ideal t φ) :=
  fun j => by unfold Idealize.ShloMosaic.shapeCast; exact hx _

theorem RealVec.extractStridedSlice {x : FVec Ideal s φ} (hx : RealVec x) (off : Fin s.rank → Nat) (h : s.Slices off t) :
    RealVec (extractStridedSlice t off x h : FVec Ideal t φ) :=
  fun j => by unfold Idealize.ShloMosaic.extractStridedSlice; exact hx _

theorem RealVec.gather {si : Shape} {w : Nat} {x : FVec Ideal s φ} (hx : RealVec x) (d : GatherDims s si t) (idx : IVec si w) :
    RealVec (Host.gather d x idx : FVec Ideal t φ) :=
  fun j => hx _

/-- The logistic function of any array is a real array. -/
theorem realVec_logistic (x : FVec Ideal s φ) : RealVec (logistic x) :=
  fun i => isReal_logistic (x i)

/-- The host's product of two real arrays is real. -/
theorem RealVec.dotGeneral {sl sr so : Shape} {φ₁ φ₂ : FTy} (d : DotDims sl sr so) (prec : Option ContractPrecision)
    {lhs : FVec Ideal sl φ₁} {rhs : FVec Ideal sr φ₂} (hl : RealVec lhs) (hr : RealVec rhs) :
    RealVec (Host.dotGeneral d prec lhs rhs) := fun j => by
  simp only [Host.dotGeneral]
  rw [Ideal.dotGeneral_apply]
  exact IsReal.sum _ _ fun k _ => (hl _).mul (hr _)

/-- The host's sum-reduction of a real array from a real initial value is real. -/
theorem RealVec.reduceAdd {axes : List (Fin s.rank)} {u : Shape} {x : FVec Ideal s φ} (hx : RealVec x)
    (init : u.Idx → Ideal φ) (hi : ∀ k, IsReal (init k)) (h : s.ReducesTo axes t) (hu : 0 < u.numel) :
    RealVec (Host.reduceAdd x init h hu : FVec Ideal t φ) := fun j => by
  show IsReal (Ideal.hostReduceAdd h x (init (Shape.Idx.first hu)) j)
  unfold Ideal.hostReduceAdd
  exact (hi _).add (IsReal.sum _ _ fun i _ => hx i)

/-- The host's scatter-add of real updates into a real operand is real. -/
theorem RealVec.scatterAdd {si su : Shape} {w : Nat} (d : ScatterDims s si su) {x : FVec Ideal s φ} (hx : RealVec x)
    (idx : IVec si w) {upd : FVec Ideal su φ} (hu : RealVec upd) : RealVec (Host.scatterAdd d x idx upd) := fun i => by
  show IsReal (Ideal.hostScatterAdd d x idx upd i)
  unfold Ideal.hostScatterAdd
  exact (hx i).add (IsReal.sum _ _ fun j _ => hu j)

/-- A real array divided, entry by entry, by an array of one non-zero real is real. -/
theorem RealVec.divf_const {x y : FVec Ideal s φ} (hx : RealVec x) {c : ℝ} (hc : c ≠ 0) (hy : ∀ i, y i = (c : EReal)) :
    RealVec (Host.divf x y) := fun i => by
  show IsReal (Ideal.div (x i) (y i))
  rw [hy i]; exact (hx i).div_coe hc

/-- The inverse square root of an array of positive reals is real. -/
theorem realVec_rsqrt_pos {x : FVec Ideal s φ} (hx : ∀ i, ∃ r : ℝ, 0 < r ∧ x i = (r : EReal)) : RealVec (Host.rsqrt x) := fun i => by
  obtain ⟨r, hr, e⟩ := hx i
  show IsReal (Ideal.rsqrt (x i))
  rw [e]; exact isReal_rsqrt_pos hr

/-- A selection between two real arrays is real. -/
theorem RealVec.select (c : IVec s 1) {a b : FVec Ideal s φ} (ha : RealVec a) (hb : RealVec b) :
    RealVec (select c a b : FVec Ideal s φ) := fun i => by
  show IsReal (Scalar.select (c i) (a i) (b i))
  unfold Scalar.select
  split
  · exact ha i
  · exact hb i

/-- An array every entry of which passes the host's finiteness test is real. -/
theorem realVec_of_finite_test (x : FVec Ideal s .f32)
    (h : ∀ i, FloatOps.cmpf .olt (FloatOps.hostAbsf (x i)) (FloatOps.ofBits (F := Ideal) .f32 0x7F800000#32) = 1#1) : RealVec x :=
  fun i => isReal_of_abs_lt_inf (x i) (h i)

end Arrays

end Cert.LibReal

end
-- ==== Proof.Finite.lean ====
/-
  The precondition: each of the five argument arrays passes the finiteness test, |x| < +∞ at every entry, and the
  five tests are joined by "and". Where the conjunction is true each test is true; a test that is true over a whole
  array is true at every entry; and an extended real whose absolute value is below +∞ is a real number. So every
  entry of every argument is a real number.
-/
import proofs.«161483_j62869731279276_2_alg».proof.Defs
import proofs.«161483_j62869731279276_2_alg».proof.Proof.Gen.Pre_finite_inputs
import proofs.«161483_j62869731279276_2_alg».proof.Proof.LibReal
import Idealize.ShloMosaic.Lib.ReduceAll

noncomputable section

namespace Cert.Finite

open Idealize.ShloMosaic Cert.Pre_finite_inputs Cert.Pre_finite_inputs.Gen

/-- The scalar shape has one index. -/
instance subsingleton_scalar : Subsingleton S_.Idx := ⟨fun _ _ => funext fun d => d.elim0⟩

/-- One test "every entry has absolute value below +∞" that came out true: every entry is a real number. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ValueIdx.ix0 = 1#1) :
    ∀ i, ∃ r : ℝ, x i = (r : EReal) := fun i =>
  Cert.LibReal.isReal_of_abs_lt_inf (x i) (Host.reduce_andi_all _ _ hr hu _ e i)

/-- Where the precondition holds, every entry of every argument is a real number. -/
theorem real_of_pre (a0 : FVec Ideal Cert.Pre_finite_inputs.S8x8192x1024 .f32) (a1 a2 : FVec Ideal Cert.Pre_finite_inputs.S64x256 .f32)
    (a3 a4 : FVec Ideal Cert.Pre_finite_inputs.S64x1024 .f32)
    (h : Cert.Pre_finite_inputs.fn (F := Ideal) a0 a1 a2 a3 a4 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h' := congrFun h ValueIdx.ix0
  dsimp only [fn, fn_part1] at h'
  obtain ⟨h', e4⟩ := IntOp.andi_eq_one.1 h'
  obtain ⟨h', e3⟩ := IntOp.andi_eq_one.1 h'
  obtain ⟨h', e2⟩ := IntOp.andi_eq_one.1 h'
  obtain ⟨e0, e1⟩ := IntOp.andi_eq_one.1 h'
  exact ⟨all_real a0 _ _ _ e0, all_real a1 _ _ _ e1, all_real a2 _ _ _ e2, all_real a3 _ _ _ e3, all_real a4 _ _ _ e4⟩

end Cert.Finite

end
-- ==== Proof.Spec.lean ====
/-
  The specification: latent cross-attention as one function of the five argument arrays.

  With q(l, h) = ∑ d, latents(l, d) · Wq(h, d), keys k(b, σ, h) = ∑ e, x(b, σ, e) · Wk(h, e) and values
  v(b, σ, h) = ∑ e, x(b, σ, e) · Wv(h, e), the score of latent l against position σ of batch b is
      s(b, l, σ) = (∑ h, k(b, σ, h) · q(l, h)) / 8
  and the result is the softmax-weighted mean of the values,
      out(b, l, h) = (∑ σ, exp(s(b, l, σ)) · v(b, σ, h)) / (∑ σ, exp(s(b, l, σ))).
  Folding the key projection into the query, qk(l, e) = ∑ h, q(l, h) · Wk(h, e), gives the same score as
  (∑ e, qk(l, e) · x(b, σ, e)) / 8: both are the double sum over (h, e) of q(l, h) · Wk(h, e) · x(b, σ, e).
  The arrays hold extended reals; the specification reads each entry's real part, which is the entry itself
  wherever the entry is a real number.
-/
import Mathlib
import Idealize.ShloMosaic.Lib.ValueIdx
import Idealize.ShloMosaic.PureOps.Ideal.Laws

noncomputable section

namespace Cert.Attn

open scoped BigOperators
open Idealize.ShloMosaic Idealize.ShloMosaic.ValueIdx

abbrev SX : Shape := ⟨3, ![8, 8192, 1024]⟩
abbrev SL : Shape := ⟨2, ![64, 256]⟩
abbrev SW : Shape := ⟨2, ![64, 1024]⟩
abbrev SO : Shape := ⟨3, ![8, 64, 64]⟩

/-- The word 0x3E000000 is one eighth; the word 0xFF800000 is −∞. -/
theorem ofBits_eighth : Ideal.ofBits .f32 0x3E000000#32 = ((1 / 8 : ℝ) : EReal) := by
  simp [Ideal.ofBits, Ideal.ieee, -EReal.coe_mul]; norm_num
theorem ofBits_neg_inf : Ideal.ofBits .f32 0xFF800000#32 = ⊥ := by
  simp [Ideal.ofBits, Ideal.ieee]

section
variable (x : SX.Idx → EReal) (lat wq : SL.Idx → EReal) (wk wv : SW.Idx → EReal)

/-- The query projection. -/
def qry (l h : Fin 64) : ℝ := ∑ d : Fin 256, (lat (ix2 l d)).toReal * (wq (ix2 h d)).toReal
/-- The key and the value projections. -/
def key (b : Fin 8) (σ : Fin 8192) (h : Fin 64) : ℝ := ∑ e : Fin 1024, (x (ix3 b σ e)).toReal * (wk (ix2 h e)).toReal
def value (b : Fin 8) (σ : Fin 8192) (h : Fin 64) : ℝ := ∑ e : Fin 1024, (x (ix3 b σ e)).toReal * (wv (ix2 h e)).toReal
/-- The scaled score. -/
def score (b : Fin 8) (l : Fin 64) (σ : Fin 8192) : ℝ := (∑ h : Fin 64, key x wk b σ h * qry lat wq l h) * (1 / 8)
/-- The key projection folded into the query. -/
def qk (l : Fin 64) (e : Fin 1024) : ℝ := ∑ h : Fin 64, qry lat wq l h * (wk (ix2 h e)).toReal

/-- The score through the folded query. -/
theorem score_folded (b : Fin 8) (l : Fin 64) (σ : Fin 8192) :
    score x lat wq wk b l σ = (∑ e : Fin 1024, qk lat wq wk l e * (x (ix3 b σ e)).toReal) * (1 / 8) := by
  unfold score key qk
  congr 1
  simp only [Finset.sum_mul]
  rw [Finset.sum_comm]
  exact Finset.sum_congr rfl fun e _ => Finset.sum_congr rfl fun h _ => by ring

/-- Attention. -/
def out (b : Fin 8) (l h : Fin 64) : ℝ :=
  (∑ σ : Fin 8192, Real.exp (score x lat wq wk b l σ) * value x wv b σ h) / (∑ σ : Fin 8192, Real.exp (score x lat wq wk b l σ))

/-- The result array. -/
def G : SO.Idx → EReal := fun i => ((out x lat wq wk wv (i 0) (i 1) (i 2) : ℝ) : EReal)

end

end Cert.Attn

end
-- ==== Proof.OnlineSoftmax.lean ====
/-
  Softmax attention over the reals, and the running (online) form of its two sums.

  For scores s(σ) and values v(σ, h) over a finite index set, attention is
      out(h) = (∑ σ, exp(s σ) · v σ h) / (∑ σ, exp(s σ)).
  Subtracting any one real number M from every score does not change the quotient (exp(s − M) = exp(−M) · exp(s),
  and the common factor cancels), so a whole-row softmax that subtracts the row's maximum and a tiled pass that
  subtracts a running maximum compute the same quotient.  The tiled pass keeps, for the positions S seen so far and
  some real μ,
      L = ∑ σ ∈ S, exp(s σ − μ)        A h = ∑ σ ∈ S, exp(s σ − μ) · v σ h,
  and a further tile T with the new reference point μ' rescales both by exp(μ − μ') and adds the tile's own terms,
  because exp(μ − μ') · exp(s σ − μ) = exp(s σ − μ').
-/
import Mathlib
import Idealize.ShloMosaic.PureOps.Ideal

noncomputable section

namespace Cert.Attn

open scoped BigOperators
open Idealize.ShloMosaic

variable {ι : Type} [DecidableEq ι]

/-- The coercion of a finite sum of reals is the sum of the coercions. -/
theorem coe_sum {κ : Type} (s : Finset κ) (f : κ → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Rescaling by the change of reference point. -/
theorem exp_shift (s m m' : ℝ) : Real.exp (m - m') * Real.exp (s - m) = Real.exp (s - m') := by
  rw [← Real.exp_add]; congr 1; ring

/-- The attention quotient does not depend on the reference point subtracted from the scores. -/
theorem quotient_shift (S : Finset ι) (s v : ι → ℝ) (M : ℝ) :
    (∑ σ ∈ S, Real.exp (s σ - M) * v σ) / (∑ σ ∈ S, Real.exp (s σ - M))
      = (∑ σ ∈ S, Real.exp (s σ) * v σ) / (∑ σ ∈ S, Real.exp (s σ)) := by
  have h1 : ∀ σ, Real.exp (s σ - M) = Real.exp (-M) * Real.exp (s σ) := fun σ => by
    rw [← Real.exp_add]; congr 1; ring
  simp only [h1, mul_assoc]
  rw [← Finset.mul_sum, ← Finset.mul_sum, mul_div_mul_left _ _ (Real.exp_pos _).ne']

/-- The whole-row form: each weight exp(s − M) / ∑ exp(s − M) times its value, summed, is the quotient. -/
theorem weights_sum (S : Finset ι) (s v : ι → ℝ) (M : ℝ) :
    (∑ σ ∈ S, (Real.exp (s σ - M) / (∑ τ ∈ S, Real.exp (s τ - M))) * v σ)
      = (∑ σ ∈ S, Real.exp (s σ) * v σ) / (∑ σ ∈ S, Real.exp (s σ)) := by
  rw [← quotient_shift S s v M, Finset.sum_div]
  exact Finset.sum_congr rfl fun σ _ => by ring

/-- A fold of `max` from −∞ over a non-empty family of reals is a real. -/
theorem fold_max_real {κ : Type} (s : Finset κ) (hs : s.Nonempty) (g : κ → ℝ) :
    ∃ r : ℝ, s.fold max (⊥ : EReal) (fun k => (g k : EReal)) = (r : EReal) := by
  classical
  induction hs using Finset.Nonempty.cons_induction with
  | singleton a => exact ⟨g a, by simp⟩
  | cons a s ha hs ih =>
    obtain ⟨r, hr⟩ := ih
    refine ⟨max (g a) r, ?_⟩
    rw [Finset.fold_cons, hr]
    exact (EReal.coe_strictMono.monotone.map_max).symm

variable {n : ℕ}

/-- One tile's update of the running maximum, of the running sum and of the running weighted sums, as the pass
    computes them on extended reals. -/
def newMax (M : EReal) (St : Fin n → EReal) : EReal := max M (Finset.univ.fold max (⊥ : EReal) St)
def newSum (M L : EReal) (St : Fin n → EReal) : EReal :=
  Ideal.exp (M - newMax M St) * L + ∑ k, Ideal.exp (St k - newMax M St)
def newAcc (M : EReal) (A : Fin 64 → EReal) (St : Fin n → EReal) (Vt : Fin n → Fin 64 → EReal) : Fin 64 → EReal :=
  fun h => Ideal.exp (M - newMax M St) * A h + ∑ k, Ideal.exp (St k - newMax M St) * Vt k h

/-- What the running pass holds for the positions `S`: a real reference point and the two sums taken from it. -/
def Rep (sc : ι → ℝ) (vv : ι → Fin 64 → ℝ) (S : Finset ι) (M L : EReal) (A : Fin 64 → EReal) : Prop :=
  ∃ μ : ℝ, M = (μ : EReal) ∧ L = ((∑ σ ∈ S, Real.exp (sc σ - μ) : ℝ) : EReal)
    ∧ ∀ h, A h = ((∑ σ ∈ S, Real.exp (sc σ - μ) * vv σ h : ℝ) : EReal)

/-- A later tile: the sums for `S` rescaled to the new reference point, plus the tile's own. -/
theorem rep_step (sc : ι → ℝ) (vv : ι → Fin 64 → ℝ) (S T : Finset ι) (hd : Disjoint S T) (hn : 0 < n) (pos : Fin n → ι)
    (hT : ∀ f : ι → ℝ, ∑ σ ∈ T, f σ = ∑ k : Fin n, f (pos k))
    (St : Fin n → EReal) (Vt : Fin n → Fin 64 → EReal)
    (hS : ∀ k, St k = (sc (pos k) : EReal)) (hV : ∀ k h, Vt k h = (vv (pos k) h : EReal))
    (M L : EReal) (A : Fin 64 → EReal) (hR : Rep sc vv S M L A) :
    Rep sc vv (S ∪ T) (newMax M St) (newSum M L St) (newAcc M A St Vt) := by
  obtain ⟨μ, rfl, rfl, hA⟩ := hR
  obtain rfl : St = fun k => ((sc (pos k) : ℝ) : EReal) := funext hS
  haveI : Nonempty (Fin n) := ⟨⟨0, hn⟩⟩
  obtain ⟨μt, hμt⟩ := fold_max_real (Finset.univ : Finset (Fin n)) Finset.univ_nonempty (fun k => sc (pos k))
  have hm : newMax (μ : EReal) (fun k => ((sc (pos k) : ℝ) : EReal)) = ((max μ μt : ℝ) : EReal) := by
    unfold newMax; rw [hμt]; exact (EReal.coe_strictMono.monotone.map_max).symm
  refine ⟨max μ μt, hm, ?_, fun h => ?_⟩
  · unfold newSum
    rw [hm]
    simp only [← EReal.coe_sub, Ideal.exp_coe, ← EReal.coe_mul, ← coe_sum, ← EReal.coe_add]
    congr 1
    rw [Finset.sum_union hd, hT, Finset.mul_sum]
    congr 1
    exact Finset.sum_congr rfl fun σ _ => exp_shift _ _ _
  · unfold newAcc
    rw [hm, hA h]
    simp only [hV, ← EReal.coe_sub, Ideal.exp_coe, ← EReal.coe_mul, ← coe_sum, ← EReal.coe_add]
    congr 1
    rw [Finset.sum_union hd, hT (fun σ => Real.exp (sc σ - max μ μt) * vv σ h), Finset.mul_sum]
    congr 1
    exact Finset.sum_congr rfl fun σ _ => by rw [← mul_assoc, exp_shift]

/-- The first tile: from the reference point −∞ and zero sums the pass holds exactly the tile's own sums. -/
theorem rep_first (sc : ι → ℝ) (vv : ι → Fin 64 → ℝ) (T : Finset ι) (hn : 0 < n) (pos : Fin n → ι)
    (hT : ∀ f : ι → ℝ, ∑ σ ∈ T, f σ = ∑ k : Fin n, f (pos k))
    (St : Fin n → EReal) (Vt : Fin n → Fin 64 → EReal)
    (hS : ∀ k, St k = (sc (pos k) : EReal)) (hV : ∀ k h, Vt k h = (vv (pos k) h : EReal)) :
    Rep sc vv T (newMax ⊥ St) (newSum ⊥ 0 St) (newAcc ⊥ (fun _ => 0) St Vt) := by
  obtain rfl : St = fun k => ((sc (pos k) : ℝ) : EReal) := funext hS
  haveI : Nonempty (Fin n) := ⟨⟨0, hn⟩⟩
  obtain ⟨μt, hμt⟩ := fold_max_real (Finset.univ : Finset (Fin n)) Finset.univ_nonempty (fun k => sc (pos k))
  have hm : newMax (⊥ : EReal) (fun k => ((sc (pos k) : ℝ) : EReal)) = (μt : EReal) := by
    unfold newMax; rw [hμt]; exact max_eq_right bot_le
  have hb : Ideal.exp ((⊥ : EReal) - (μt : EReal)) = 0 := by
    rw [sub_eq_add_neg, EReal.bot_add]; rfl
  refine ⟨μt, hm, ?_, fun h => ?_⟩
  · unfold newSum
    rw [hm, hb, zero_mul, zero_add, hT, coe_sum]
    exact Finset.sum_congr rfl fun k _ => by rw [← EReal.coe_sub, Ideal.exp_coe]
  · unfold newAcc
    rw [hm, hb, zero_mul, zero_add, hT (fun σ => Real.exp (sc σ - μt) * vv σ h), coe_sum]
    exact Finset.sum_congr rfl fun k _ => by rw [hV, ← EReal.coe_sub, Ideal.exp_coe, ← EReal.coe_mul]

/-- At the end the quotient of the two sums is the attention quotient, whatever the reference point. -/
theorem rep_quotient (sc : ι → ℝ) (vv : ι → Fin 64 → ℝ) (S : Finset ι) (hS : S.Nonempty) (M L : EReal) (A : Fin 64 → EReal)
    (hR : Rep sc vv S M L A) (h : Fin 64) :
    Ideal.div (A h) L = (((∑ σ ∈ S, Real.exp (sc σ) * vv σ h) / (∑ σ ∈ S, Real.exp (sc σ)) : ℝ) : EReal) := by
  obtain ⟨μ, rfl, rfl, hA⟩ := hR
  have hpos : 0 < ∑ σ ∈ S, Real.exp (sc σ - μ) := Finset.sum_pos (fun σ _ => Real.exp_pos _) hS
  rw [hA h, Ideal.div_coe hpos.ne', ← EReal.coe_mul, ← quotient_shift S sc (fun σ => vv σ h) μ]
  congr 1
  rw [mul_one_div]

end Cert.Attn

end
-- ==== Proof.Reference.lean ====
/-
  The reference is the attention quotient.

  The reference forms the queries q(l, h) = ∑ d, latents(l, d) · Wq(h, d), the keys k(b, σ, h) = ∑ e, x(b, σ, e) · Wk(h, e)
  and the values v(b, σ, h) = ∑ e, x(b, σ, e) · Wv(h, e); the scores s(b, l, σ) = (∑ h, k(b, σ, h) · q(l, h)) · (1/8); for
  each row (b, l) the maximum M of its 8192 scores, taken from −∞; the exponentials exp(s − M); their row sum; the
  weights exp(s − M) / ∑ τ, exp(s(τ) − M); and the result ∑ σ, weight(σ) · v(b, σ, h).
  Where every entry of the five arguments is a real number, each of these is a real number: sums and products of
  reals are real, the maximum from −∞ over a non-empty row of reals is a real, the exponential of a real is a positive
  real, so the row sum is a positive real and the quotient by it is real. On the reals, subtracting one number M from
  every score of a row does not change the quotient (∑ exp(s) · v) / (∑ exp(s)), whichever real M is: so the result
  is the attention quotient of the specification, entry by entry.
-/
import proofs.«161483_j62869731279276_2_alg».proof.Proof.Gen.ReferenceIdeal.Read
import proofs.«161483_j62869731279276_2_alg».proof.Proof.Spec
import proofs.«161483_j62869731279276_2_alg».proof.Proof.OnlineSoftmax

noncomputable section

namespace Cert.RefBridge

open scoped BigOperators
open Cert.ReferenceIdeal Cert.ReferenceIdeal.Gen Cert.ReferenceIdeal.Read Idealize.ShloMosaic Idealize.ShloMosaic.ValueIdx Cert.Attn

/-- An entry that is a real number is the coercion of its real part. -/
theorem coe_toReal_of {x : EReal} (h : ∃ r : ℝ, x = (r : EReal)) : x = ((x.toReal : ℝ) : EReal) := by
  obtain ⟨r, rfl⟩ := h
  rw [EReal.toReal_coe]

/-- A product of two real entries is the coercion of the product of their real parts. -/
theorem mul_coe_toReal {x y : EReal} (hx : ∃ r : ℝ, x = (r : EReal)) (hy : ∃ r : ℝ, y = (r : EReal)) :
    x * y = ((x.toReal * y.toReal : ℝ) : EReal) := by
  obtain ⟨r, rfl⟩ := hx
  obtain ⟨s, rfl⟩ := hy
  rw [EReal.toReal_coe, EReal.toReal_coe, EReal.coe_mul]

section
variable (x0 : SX.Idx → EReal) (x1 x2 : SL.Idx → EReal) (x3 x4 : SW.Idx → EReal)

/-- The query projection at (l, h). -/
theorem q_apply (h1 : ∀ i, ∃ r : ℝ, x1 i = (r : EReal)) (h2 : ∀ i, ∃ r : ℝ, x2 i = (r : EReal)) (l h : Fin 64) :
    val_main_v0 (F := Ideal) x1 x2 (ix2 l h) = ((qry x1 x2 l h : ℝ) : EReal) := by
  rw [val_main_v0_apply]
  unfold qry
  rw [coe_sum]
  refine Finset.sum_congr rfl fun d _ => ?_
  have el : lidx_main_v0 (ix2 l h) d = ix2 l d := funext fun a => Fin.ext (by
    match a with
    | ⟨0, _⟩ => rfl
    | ⟨1, _⟩ => rfl)
  have er : ridx_main_v0 (ix2 l h) d = ix2 h d := funext fun a => Fin.ext (by
    match a with
    | ⟨0, _⟩ => rfl
    | ⟨1, _⟩ => rfl)
  rw [el, er]
  exact mul_coe_toReal (h1 _) (h2 _)

/-- A key or value projection at (b, σ, h). -/
theorem kv_apply (w : SW.Idx → EReal) (h0 : ∀ i, ∃ r : ℝ, x0 i = (r : EReal)) (hw : ∀ i, ∃ r : ℝ, w i = (r : EReal))
    (b : Fin 8) (σ : Fin 8192) (h : Fin 64) :
    val_main_v1 (F := Ideal) x0 w (ix3 b σ h) = ((key x0 w b σ h : ℝ) : EReal) := by
  rw [val_main_v1_apply]
  unfold key
  rw [coe_sum]
  refine Finset.sum_congr rfl fun e _ => ?_
  have el : lidx_main_v1 (ix3 b σ h) e = ix3 b σ e := funext fun a => Fin.ext (by
    match a with
    | ⟨0, _⟩ => rfl
    | ⟨1, _⟩ => rfl
    | ⟨2, _⟩ => rfl)
  have er : ridx_main_v1 (ix3 b σ h) e = ix2 h e := funext fun a => Fin.ext (by
    match a with
    | ⟨0, _⟩ => rfl
    | ⟨1, _⟩ => rfl)
  rw [el, er]
  exact mul_coe_toReal (h0 _) (hw _)

end

section
variable (x0 : SX.Idx → EReal) (x1 x2 : SL.Idx → EReal) (x3 x4 : SW.Idx → EReal)

/-- The unscaled score at (b, σ, l): the key at (b, σ) against the query at l. -/
theorem kq_apply (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal))
    (b : Fin 8) (σ : Fin 8192) (l : Fin 64) :
    val_main_v3 (F := Ideal) x0 x1 x2 x3 (ix3 b σ l) = ((∑ h : Fin 64, key x0 x3 b σ h * qry x1 x2 l h : ℝ) : EReal) := by
  rw [val_main_v3_apply, coe_sum]
  refine Finset.sum_congr rfl fun h _ => ?_
  have el : lidx_main_v3 (ix3 b σ l) h = ix3 b σ h := funext fun a => Fin.ext (by
    match a with
    | ⟨0, _⟩ => rfl
    | ⟨1, _⟩ => rfl
    | ⟨2, _⟩ => rfl)
  have er : ridx_main_v3 (ix3 b σ l) h = ix2 l h := funext fun a => Fin.ext (by
    match a with
    | ⟨0, _⟩ => rfl
    | ⟨1, _⟩ => rfl)
  rw [el, er, kv_apply x0 x3 h0 h3, q_apply x1 x2 h1 h2, EReal.coe_mul]

/-- The scaled score at (b, l, σ). -/
theorem score_apply (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal))
    (b : Fin 8) (l : Fin 64) (σ : Fin 8192) :
    val_main_v6 (F := Ideal) x0 x1 x2 x3 (ix3 b l σ) = ((score x0 x1 x2 x3 b l σ : ℝ) : EReal) := by
  rw [val_main_v6_apply, val_main_v4_apply, val_main_v5_apply, val_main_cst_apply]
  have e4 : idx_main_v4 (ix3 b l σ) = ix3 b σ l := funext fun a => Fin.ext (by
    match a with
    | ⟨0, _⟩ => rfl
    | ⟨1, _⟩ => rfl
    | ⟨2, _⟩ => rfl)
  rw [e4, kq_apply x0 x1 x2 x3 h0 h1 h2 h3, Ideal.ofBits_def, ofBits_eighth, Ideal.mulf_def, ← EReal.coe_mul]
  rfl

end

section
variable (x0 : SX.Idx → EReal) (x1 x2 : SL.Idx → EReal) (x3 x4 : SW.Idx → EReal)

/-- The index (b, l) of a row with the position k put back on the last axis is (b, l, k). -/
theorem lift_row (hR : S8x64x8192.Reduces [2] S8x64) (b : Fin 8) (l : Fin 64) (k : Fin (S8x64x8192.size 2)) :
    hR.lift (ix2 b l) k = ix3 b l (⟨k.val, k.isLt⟩ : Fin 8192) := by
  funext c; apply Fin.ext
  fin_cases c <;> rfl

/-- The row maximum at (b, l), taken from −∞ over the 8192 scores of the row, is a real number. -/
theorem max_real (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal)) (b : Fin 8) (l : Fin 64) :
    ∃ M : ℝ, val_main_v9 (F := Ideal) x0 x1 x2 x3 (ix2 b l) = (M : EReal) := by
  have hR : S8x64x8192.Reduces [2] S8x64 := by decide
  rw [val_main_v9_apply, val_main_v8_apply, val_main_cst_1_apply, Ideal.ofBits_def, ofBits_neg_inf, Ideal.maximumf_def,
    max_eq_right bot_le]
  unfold val_main_v7
  rw [Host.reduce_eq_fold_single FloatOps.maximumf _ _ reducesTo_S8x64x8192_S8x64_d2 hR h_S_,
    val_main_cst_0_apply, Ideal.ofBits_def, ofBits_neg_inf]
  have hf : (val_main_v6 (F := Ideal) x0 x1 x2 x3 ∘ hR.lift (ix2 b l))
      = fun k : Fin (S8x64x8192.size 2) => ((score x0 x1 x2 x3 b l (⟨k.val, k.isLt⟩ : Fin 8192) : ℝ) : EReal) :=
    funext fun k => by rw [Function.comp_apply, lift_row hR b l k, score_apply x0 x1 x2 x3 h0 h1 h2 h3]
  rw [hf]
  exact fold_max_real (Finset.univ : Finset (Fin (S8x64x8192.size 2))) ⟨⟨0, by decide⟩, Finset.mem_univ _⟩
    (fun k => score x0 x1 x2 x3 b l (⟨k.val, k.isLt⟩ : Fin 8192))

end

section
variable (x0 : SX.Idx → EReal) (x1 x2 : SL.Idx → EReal) (x3 x4 : SW.Idx → EReal)

/-- The value projection at (b, σ, h). -/
theorem v_apply (h0 : ∀ i, ∃ r : ℝ, x0 i = (r : EReal)) (h4 : ∀ i, ∃ r : ℝ, x4 i = (r : EReal))
    (b : Fin 8) (σ : Fin 8192) (h : Fin 64) :
    val_main_v2 (F := Ideal) x0 x4 (ix3 b σ h) = ((value x0 x4 b σ h : ℝ) : EReal) := by
  rw [val_main_v2_apply]
  unfold value
  rw [coe_sum]
  refine Finset.sum_congr rfl fun e _ => ?_
  have el : lidx_main_v2 (ix3 b σ h) e = ix3 b σ e := funext fun a => Fin.ext (by
    match a with
    | ⟨0, _⟩ => rfl
    | ⟨1, _⟩ => rfl
    | ⟨2, _⟩ => rfl)
  have er : ridx_main_v2 (ix3 b σ h) e = ix2 h e := funext fun a => Fin.ext (by
    match a with
    | ⟨0, _⟩ => rfl
    | ⟨1, _⟩ => rfl)
  rw [el, er]
  exact mul_coe_toReal (h0 _) (h4 _)

/-- The exponential of the score less the row's maximum, at (b, l, σ). -/
theorem exp_apply (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal))
    (b : Fin 8) (l : Fin 64) (σ : Fin 8192) (M : ℝ)
    (hM : val_main_v9 (F := Ideal) x0 x1 x2 x3 (ix2 b l) = (M : EReal)) :
    val_main_v13 (F := Ideal) x0 x1 x2 x3 (ix3 b l σ) = ((Real.exp (score x0 x1 x2 x3 b l σ - M) : ℝ) : EReal) := by
  rw [val_main_v13_apply, val_main_v12_apply, val_main_v11_apply, val_main_v10_apply]
  have e : idx_main_v10 (idx_main_v11 (ix3 b l σ)) = ix2 b l := funext fun a => Fin.ext (by
    match a with
    | ⟨0, _⟩ => rfl
    | ⟨1, _⟩ => rfl)
  rw [e, hM, score_apply x0 x1 x2 x3 h0 h1 h2 h3, Ideal.hostUnary_exp_def, Ideal.subf_def, ← EReal.coe_sub, Ideal.exp_coe]

/-- The row's sum of exponentials at (b, l). -/
theorem sum_apply (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal))
    (b : Fin 8) (l : Fin 64) (M : ℝ)
    (hM : val_main_v9 (F := Ideal) x0 x1 x2 x3 (ix2 b l) = (M : EReal)) :
    val_main_v14 (F := Ideal) x0 x1 x2 x3 (ix2 b l)
      = ((∑ σ : Fin 8192, Real.exp (score x0 x1 x2 x3 b l σ - M) : ℝ) : EReal) := by
  rw [val_main_v14_apply, val_main_cst_2_apply, Ideal.ofBits_def, Ideal.ofBits_zero_f32, zero_add, coe_sum]
  refine Finset.sum_congr rfl fun σ _ => ?_
  have e : idx_main_v14 (ix2 b l) σ = ix3 b l σ := funext fun a => Fin.ext (by
    match a with
    | ⟨0, _⟩ => rfl
    | ⟨1, _⟩ => rfl
    | ⟨2, _⟩ => rfl)
  rw [e, exp_apply x0 x1 x2 x3 h0 h1 h2 h3 b l σ M hM]

/-- The softmax weight at (b, l, σ). -/
theorem weight_apply (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal))
    (b : Fin 8) (l : Fin 64) (σ : Fin 8192) (M : ℝ)
    (hM : val_main_v9 (F := Ideal) x0 x1 x2 x3 (ix2 b l) = (M : EReal)) :
    val_main_v17 (F := Ideal) x0 x1 x2 x3 (ix3 b l σ)
      = ((Real.exp (score x0 x1 x2 x3 b l σ - M) / (∑ τ : Fin 8192, Real.exp (score x0 x1 x2 x3 b l τ - M)) : ℝ) : EReal) := by
  rw [val_main_v17_apply, val_main_v16_apply, val_main_v15_apply]
  have e : idx_main_v15 (idx_main_v16 (ix3 b l σ)) = ix2 b l := funext fun a => Fin.ext (by
    match a with
    | ⟨0, _⟩ => rfl
    | ⟨1, _⟩ => rfl)
  have hpos : 0 < ∑ τ : Fin 8192, Real.exp (score x0 x1 x2 x3 b l τ - M) :=
    Finset.sum_pos (fun τ _ => Real.exp_pos _) Finset.univ_nonempty
  rw [e, sum_apply x0 x1 x2 x3 h0 h1 h2 h3 b l M hM, exp_apply x0 x1 x2 x3 h0 h1 h2 h3 b l σ M hM, Ideal.hostDivf_def,
    Ideal.div_coe hpos.ne', ← EReal.coe_mul, mul_one_div]

/-- The reference computes the attention quotient of the entries' real parts. -/
theorem ref_eq (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal)) (h4 : ∀ i, ∃ r : ℝ, x4 i = (r : EReal)) :
    Cert.ReferenceIdeal.Read.val_main_v18 (F := Ideal) x0 x1 x2 x3 x4 = Cert.Attn.G x0 x1 x2 x3 x4 := by
  funext i
  obtain ⟨b, l, h, rfl⟩ : ∃ (b : Fin 8) (l : Fin 64) (h : Fin 64), i = ix3 b l h := ⟨i 0, i 1, i 2, eq_ix3 i⟩
  obtain ⟨M, hM⟩ := max_real x0 x1 x2 x3 h0 h1 h2 h3 b l
  rw [val_main_v18_apply]
  show _ = ((out x0 x1 x2 x3 x4 b l h : ℝ) : EReal)
  unfold out
  rw [← weights_sum Finset.univ (fun σ => score x0 x1 x2 x3 b l σ) (fun σ => value x0 x4 b σ h) M, coe_sum]
  refine Finset.sum_congr rfl fun σ _ => ?_
  have el : lidx_main_v18 (ix3 b l h) σ = ix3 b l σ := funext fun a => Fin.ext (by
    match a with
    | ⟨0, _⟩ => rfl
    | ⟨1, _⟩ => rfl
    | ⟨2, _⟩ => rfl)
  have er : ridx_main_v18 (ix3 b l h) σ = ix3 b σ h := funext fun a => Fin.ext (by
    match a with
    | ⟨0, _⟩ => rfl
    | ⟨1, _⟩ => rfl
    | ⟨2, _⟩ => rfl)
  rw [el, er, weight_apply x0 x1 x2 x3 h0 h1 h2 h3 b l σ M hM, v_apply x0 x4 h0 h4, ← EReal.coe_mul]

end

end Cert.RefBridge

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.KernelTile.lean ====
/-
  The body's arithmetic on one tile, read entry by entry on the extended reals.

  With the tile's block x (rows s, columns e), the folded query qk (rows l) and the value weights Wv (rows h):
    raw scores       S(l, s) = (∑ e, qk(l, e) · x(s, e)) · (1/8)
    tile values      V(s, h) = ∑ e, x(s, e) · Wv(h, e)
    new maximum      m'(l)   = max (m(l)) (max over s of S(l, s), from −∞)
    rescaling        a(l)    = exp(m(l) − m'(l))
    weights          p(l, s) = exp(S(l, s) − m'(l))
    new sum          L'(l)   = a(l) · L(l) + ∑ s, p(l, s)
    new weighted sum A'(l,h) = a(l) · A(l, h) + ∑ s, p(l, s) · V(s, h)
  and at the last tile the output entry is A'(l, h) / L'(l).  Changes of float format are the identity here.
-/
import proofs.«161483_j62869731279276_2_alg».proof.Proof.Gen.KernelIdeal.Skeleton
import proofs.«161483_j62869731279276_2_alg».proof.Proof.LibLayout
import proofs.«161483_j62869731279276_2_alg».proof.Proof.Spec
import proofs.«161483_j62869731279276_2_alg».proof.Proof.OnlineSoftmax
import Idealize.ShloMosaic.Lib.ValueLayout

noncomputable section

open Idealize.ShloMosaic Idealize.ShloMosaic.ValueIdx

namespace Cert.KernelIdeal.Tile

open Cert.KernelIdeal Cert.KernelIdeal.Gen Cert.LibLayout Cert.Attn

theorem dq_l0 (j) (k) : (dot_S64x1024_S2048x1024_S64x2048_1_1_0_0_n_n.lhsIdx j k 0).val = (j 0).val := by
  unfold DotDims.lhsIdx
  rw [dif_neg (show ¬(0 : Fin S64x1024.rank) ∈ dot_S64x1024_S2048x1024_S64x2048_1_1_0_0_n_n.lhsBatch by decide), dif_pos (show (0 : Fin S64x1024.rank) ∈ dot_S64x1024_S2048x1024_S64x2048_1_1_0_0_n_n.lhsNonContracting by decide)]
  rfl
theorem dq_r0 (j) (k) : (dot_S64x1024_S2048x1024_S64x2048_1_1_0_0_n_n.rhsIdx j k 0).val = (j 1).val := by
  unfold DotDims.rhsIdx
  rw [dif_neg (show ¬(0 : Fin S2048x1024.rank) ∈ dot_S64x1024_S2048x1024_S64x2048_1_1_0_0_n_n.rhsBatch by decide), dif_pos (show (0 : Fin S2048x1024.rank) ∈ dot_S64x1024_S2048x1024_S64x2048_1_1_0_0_n_n.rhsNonContracting by decide)]
  rfl
theorem dv_l0 (j) (k) : (dot_S2048x1024_S64x1024_S2048x64_1_1_0_0_n_n.lhsIdx j k 0).val = (j 0).val := by
  unfold DotDims.lhsIdx
  rw [dif_neg (show ¬(0 : Fin S2048x1024.rank) ∈ dot_S2048x1024_S64x1024_S2048x64_1_1_0_0_n_n.lhsBatch by decide), dif_pos (show (0 : Fin S2048x1024.rank) ∈ dot_S2048x1024_S64x1024_S2048x64_1_1_0_0_n_n.lhsNonContracting by decide)]
  rfl
theorem dv_r0 (j) (k) : (dot_S2048x1024_S64x1024_S2048x64_1_1_0_0_n_n.rhsIdx j k 0).val = (j 1).val := by
  unfold DotDims.rhsIdx
  rw [dif_neg (show ¬(0 : Fin S64x1024.rank) ∈ dot_S2048x1024_S64x1024_S2048x64_1_1_0_0_n_n.rhsBatch by decide), dif_pos (show (0 : Fin S64x1024.rank) ∈ dot_S2048x1024_S64x1024_S2048x64_1_1_0_0_n_n.rhsNonContracting by decide)]
  rfl
theorem dp_l0 (j) (k) : (dot_S64x2048_S2048x64_S64x64_1_0_0_1_n_n.lhsIdx j k 0).val = (j 0).val := by
  unfold DotDims.lhsIdx
  rw [dif_neg (show ¬(0 : Fin S64x2048.rank) ∈ dot_S64x2048_S2048x64_S64x64_1_0_0_1_n_n.lhsBatch by decide), dif_pos (show (0 : Fin S64x2048.rank) ∈ dot_S64x2048_S2048x64_S64x64_1_0_0_1_n_n.lhsNonContracting by decide)]
  rfl
theorem dp_r1 (j) (k) : (dot_S64x2048_S2048x64_S64x64_1_0_0_1_n_n.rhsIdx j k 1).val = (j 1).val := by
  unfold DotDims.rhsIdx
  rw [dif_neg (show ¬(1 : Fin S2048x64.rank) ∈ dot_S64x2048_S2048x64_S64x64_1_0_0_1_n_n.rhsBatch by decide), dif_pos (show (1 : Fin S2048x64.rank) ∈ dot_S64x2048_S2048x64_S64x64_1_0_0_1_n_n.rhsNonContracting by decide)]
  rfl

variable (x0 : Vec Ideal S1x2048x1024 .f32) (x1 x2 : Vec Ideal S64x1024 .f32)

/-- The block with its unit axis dropped. -/
theorem pay7_apply (s : Fin 2048) (e : Fin 1024) : k0_pay7 (F := Ideal) x0 (ix2 s e) = x0 (ix3 (0 : Fin 1) s e) := by
  unfold k0_pay7
  exact shapeCast_1ab_ab_apply x0 _ s e

/-- The tile's scaled scores. -/
def S (l : Fin 64) (s : Fin 2048) : EReal := (∑ e : Fin 1024, x1 (ix2 l e) * x0 (ix3 (0 : Fin 1) s e)) * Ideal.ofBits .f32 0x3E000000#32
/-- The tile's values. -/
def Vt (s : Fin 2048) (h : Fin 64) : EReal := ∑ e : Fin 1024, x0 (ix3 (0 : Fin 1) s e) * x2 (ix2 h e)

theorem pay8_apply (l : Fin 64) (s : Fin 2048) : k0_pay8 (F := Ideal) x0 x1 (ix2 l s) = S x0 x1 l s := by
  unfold k0_pay8 S
  refine (mulf_apply _ _ _).trans ?_
  refine congrArg (· * _) ?_
  refine (matmul_rows_rows_apply dot_S64x1024_S2048x1024_S64x2048_1_1_0_0_n_n rfl rfl rfl rfl dq_l0 dq_r0 none _ _ l s).trans ?_
  refine Finset.sum_congr rfl fun e _ => ?_
  rw [pay7_apply, shapeCast_self]
  rfl

theorem pay9_apply (s : Fin 2048) (h : Fin 64) : k0_pay9 (F := Ideal) x0 x2 (ix2 s h) = Vt x0 x2 s h := by
  unfold k0_pay9 Vt
  refine (matmul_rows_rows_apply dot_S2048x1024_S64x1024_S2048x64_1_1_0_0_n_n rfl rfl rfl rfl dv_l0 dv_r0 none _ _ s h).trans ?_
  refine Finset.sum_congr rfl fun e _ => ?_
  rw [pay7_apply]
  rfl

variable (m l : Vec Ideal S64x1 .f32) (a : Vec Ideal S64x64 .f32)

theorem pay10_apply (r : Fin 64) : k0_pay10 (F := Ideal) x0 x1 m (ix2 r (0 : Fin 1)) = newMax (m (ix2 r (0 : Fin 1))) (S x0 x1 r) := by
  unfold k0_pay10 newMax
  refine (maximumf_apply _ _ _).trans ?_
  refine congrArg (max _) ?_
  refine (shapeCast_a_a1_apply _ _ r 0).trans ?_
  refine (max_rows_apply _ _ _ _ r).trans ?_
  rw [ofBits_neg_inf]
  exact congrArg (fun f => Finset.fold max ⊥ f Finset.univ) (funext fun s => pay8_apply x0 x1 r s)

theorem pay11_apply (r : Fin 64) :
    k0_pay11 (F := Ideal) x0 x1 m m (ix2 r (0 : Fin 1)) = Ideal.exp (m (ix2 r (0 : Fin 1)) - newMax (m (ix2 r (0 : Fin 1))) (S x0 x1 r)) := by
  unfold k0_pay11
  show Ideal.exp (m (ix2 r (0 : Fin 1)) - k0_pay10 (F := Ideal) x0 x1 m (ix2 r (0 : Fin 1))) = _
  rw [pay10_apply]

theorem pay12_apply (r : Fin 64) (s : Fin 2048) :
    k0_pay12 (F := Ideal) x0 x1 m (ix2 r s) = Ideal.exp (S x0 x1 r s - newMax (m (ix2 r (0 : Fin 1))) (S x0 x1 r)) := by
  unfold k0_pay12
  show Ideal.exp (k0_pay8 (F := Ideal) x0 x1 (ix2 r s) - broadcastTo S64x2048 (k0_pay10 (F := Ideal) x0 x1 m) _ (ix2 r s)) = _
  rw [pay8_apply, broadcastTo_a1_ab_apply, pay10_apply]

theorem pay13_apply (r : Fin 64) :
    k0_pay13 (F := Ideal) x0 x1 m m l (ix2 r (0 : Fin 1)) = newSum (m (ix2 r (0 : Fin 1))) (l (ix2 r (0 : Fin 1))) (S x0 x1 r) := by
  unfold k0_pay13 newSum
  rw [shapeCast_self]
  refine (addf_apply _ _ _).trans ?_
  refine congrArg₂ (· + ·) ?_ ?_
  · refine (mulf_apply _ _ _).trans ?_
    rw [pay11_apply]
  · refine (shapeCast_a_a1_apply _ _ r 0).trans ?_
    refine (sum_rows_apply _ _ _ _ r).trans ?_
    exact Finset.sum_congr rfl fun s _ => pay12_apply x0 x1 m r s

theorem pay1_apply (r h : Fin 64) :
    k0_pay1 (F := Ideal) (k0_pay9 x0 x2) (k0_pay11 x0 x1 m m) (k0_pay12 x0 x1 m) a (ix2 r h)
      = newAcc (m (ix2 r (0 : Fin 1))) (fun h => a (ix2 r h)) (S x0 x1 r) (Vt x0 x2) h := by
  unfold k0_pay1 newAcc
  rw [shapeCast_self]
  refine (addf_apply _ _ _).trans ?_
  refine congrArg₂ (· + ·) ?_ ?_
  · refine (mulf_apply _ _ _).trans ?_
    rw [broadcastTo_a1_ab_apply, pay11_apply]
  · refine (matmul_rows_cols_apply dot_S64x2048_S2048x64_S64x64_1_0_0_1_n_n rfl rfl rfl rfl dp_l0 dp_r1 none _ _ r h).trans ?_
    refine Finset.sum_congr rfl fun s _ => ?_
    show k0_pay12 (F := Ideal) x0 x1 m (ix2 r s) * k0_pay9 (F := Ideal) x0 x2 (ix2 s h) = _
    rw [pay12_apply, pay9_apply]

theorem pay2_eq : k0_pay2 (F := Ideal) m = m := by
  unfold k0_pay2
  exact shapeCast_self _ _

theorem pay3_apply (u : Fin 1) (r h : Fin 64) :
    k0_pay3 (F := Ideal) a l (ix3 u r h) = Ideal.div (a (ix2 r h)) (l (ix2 r (0 : Fin 1))) := by
  unfold k0_pay3
  refine (shapeCast_ab_1ab_apply _ _ u r h).trans ?_
  refine (divf_apply _ _ _).trans ?_
  rw [broadcastTo_a1_ab_apply]

/-- The values the body stores at a batch's first tile before it reads them back. -/
theorem pay4_apply (i) : k0_pay4 (F := Ideal) i = ⊥ := by
  unfold k0_pay4
  rw [shapeCast_self]
  exact ofBits_neg_inf
theorem pay5_apply (i) : k0_pay5 (F := Ideal) i = 0 := by
  unfold k0_pay5
  rw [shapeCast_self]
  exact Ideal.ofBits_zero_f32
theorem pay6_apply (i) : k0_pay6 (F := Ideal) i = 0 := by
  unfold k0_pay6
  rw [shapeCast_self]
  exact Ideal.ofBits_zero_f32

end Cert.KernelIdeal.Tile

end
-- ==== Proof.KernelPieces.lean ====
/-
  What each of the three cases of the body leaves in the three carried buffers and in the output block, as the body's
  arithmetic applied to the input blocks and to what the buffers held before: the running maximum, the running sum and
  the running weighted sums of one tile; at a batch's first tile taken from −∞, 0 and 0, which the body stores first;
  at its last tile the output block is the weighted sums divided by the sum.
-/
import proofs.«161483_j62869731279276_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- One tile's new maximum, sum and weighted sums from the blocks and the old maximum, sum and weighted sums. -/
abbrev stepM (x0 : Vec F S1x2048x1024 .f32) (x1 : Vec F S64x1024 .f32) (m : Vec F S64x1 .f32) : Vec F S64x1 .f32 := k0_pay2 (k0_pay10 x0 x1 m)
abbrev stepL (x0 : Vec F S1x2048x1024 .f32) (x1 : Vec F S64x1024 .f32) (m l : Vec F S64x1 .f32) : Vec F S64x1 .f32 := k0_pay13 x0 x1 m m l
abbrev stepA (x0 : Vec F S1x2048x1024 .f32) (x1 x2 : Vec F S64x1024 .f32) (m : Vec F S64x1 .f32) (a : Vec F S64x64 .f32) : Vec F S64x64 .f32 := k0_pay1 (k0_pay9 x0 x2) (k0_pay11 x0 x1 m m) (k0_pay12 x0 x1 m) a

theorem first_max (c : Dev nD) (i : grid0.Coords) (arg2 : Memref sig .tc .vmem S1x2048x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x64x64 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S64x64 .f32) (harg8 : arg8.IsWhole) (hc0 : cond0_0 i) (hc1 : ¬cond0_1 i)
    (x0 : Vec F S1x2048x1024 .f32) (x1 : Vec F S64x1024 .f32) (x2 : Vec F S64x1024 .f32) :
    sout0_A_0 c i arg2 harg2 arg3 harg3 arg4 harg4 arg5 harg5 arg6 harg6 arg7 harg7 arg8 harg8 hc0 hc1 x0 x1 x2 = stepM x0 x1 k0_pay4 := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  simp only [View.canon_cons_unit_zero (S := S64x1) hz2, View.canon_unit_zero (S := S64x1) hz2, View.readCov_unit_zero (S := S64x1) _ hz2,
    View.readCov_unit_zero (S := S64x64) _ hz2, View.readAt_eq_ld, harg2.read_unread, harg3.read_unread, harg4.read_unread,
    harg6.read_unread, harg7.read_unread, harg8.read_unread, View.ld_unit_zero (S := S1x2048x1024) hz3,
    View.ld_unit_zero (S := S64x1024) hz2, View.ld_unit_zero (S := S64x1) hz2, View.ld_unit_zero (S := S64x64) hz2]

theorem first_sum (c : Dev nD) (i : grid0.Coords) (arg2 : Memref sig .tc .vmem S1x2048x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x64x64 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S64x64 .f32) (harg8 : arg8.IsWhole) (hc0 : cond0_0 i) (hc1 : ¬cond0_1 i)
    (x0 : Vec F S1x2048x1024 .f32) (x1 : Vec F S64x1024 .f32) (x2 : Vec F S64x1024 .f32) :
    sout0_A_1 c i arg2 harg2 arg3 harg3 arg4 harg4 arg5 harg5 arg6 harg6 arg7 harg7 arg8 harg8 hc0 hc1 x0 x1 x2 = stepL x0 x1 k0_pay4 k0_pay5 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  simp only [View.canon_cons_unit_zero (S := S64x1) hz2, View.canon_unit_zero (S := S64x1) hz2, View.readCov_unit_zero (S := S64x1) _ hz2,
    View.readCov_unit_zero (S := S64x64) _ hz2, View.readAt_eq_ld, harg2.read_unread, harg3.read_unread, harg4.read_unread,
    harg6.read_unread, harg7.read_unread, harg8.read_unread, View.ld_unit_zero (S := S1x2048x1024) hz3,
    View.ld_unit_zero (S := S64x1024) hz2, View.ld_unit_zero (S := S64x1) hz2, View.ld_unit_zero (S := S64x64) hz2]

theorem first_acc (c : Dev nD) (i : grid0.Coords) (arg2 : Memref sig .tc .vmem S1x2048x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x64x64 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S64x64 .f32) (harg8 : arg8.IsWhole) (hc0 : cond0_0 i) (hc1 : ¬cond0_1 i)
    (x0 : Vec F S1x2048x1024 .f32) (x1 : Vec F S64x1024 .f32) (x2 : Vec F S64x1024 .f32) :
    sout0_A_2 c i arg2 harg2 arg3 harg3 arg4 harg4 arg5 harg5 arg6 harg6 arg7 harg7 arg8 harg8 hc0 hc1 x0 x1 x2 = stepA x0 x1 x2 k0_pay4 k0_pay6 := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  simp only [View.canon_cons_unit_zero (S := S64x64) hz2, View.canon_unit_zero (S := S64x64) hz2, View.readCov_unit_zero (S := S64x1) _ hz2,
    View.readCov_unit_zero (S := S64x64) _ hz2, View.readAt_eq_ld, harg2.read_unread, harg3.read_unread, harg4.read_unread,
    harg6.read_unread, harg7.read_unread, harg8.read_unread, View.ld_unit_zero (S := S1x2048x1024) hz3,
    View.ld_unit_zero (S := S64x1024) hz2, View.ld_unit_zero (S := S64x1) hz2, View.ld_unit_zero (S := S64x64) hz2]

theorem mid_max (c : Dev nD) (i : grid0.Coords) (arg2 : Memref sig .tc .vmem S1x2048x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x64x64 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S64x64 .f32) (harg8 : arg8.IsWhole) (hc0 : ¬cond0_0 i) (hc1 : ¬cond0_1 i)
    (x0 : Vec F S1x2048x1024 .f32) (x1 : Vec F S64x1024 .f32) (x2 : Vec F S64x1024 .f32) (xs0 : Vec F S64x1 .f32) (xs1 : Vec F S64x1 .f32) (xs2 : Vec F S64x64 .f32) :
    sout0_B_0 c i arg2 harg2 arg3 harg3 arg4 harg4 arg5 harg5 arg6 harg6 arg7 harg7 arg8 harg8 hc0 hc1 x0 x1 x2 xs0 xs1 xs2 = stepM x0 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  simp only [View.canon_cons_unit_zero (S := S64x1) hz2, View.canon_unit_zero (S := S64x1) hz2, View.readCov_unit_zero (S := S64x1) _ hz2,
    View.readCov_unit_zero (S := S64x64) _ hz2, View.readAt_eq_ld, harg2.read_unread, harg3.read_unread, harg4.read_unread,
    harg6.read_unread, harg7.read_unread, harg8.read_unread, View.ld_unit_zero (S := S1x2048x1024) hz3,
    View.ld_unit_zero (S := S64x1024) hz2, View.ld_unit_zero (S := S64x1) hz2, View.ld_unit_zero (S := S64x64) hz2]

theorem mid_sum (c : Dev nD) (i : grid0.Coords) (arg2 : Memref sig .tc .vmem S1x2048x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x64x64 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S64x64 .f32) (harg8 : arg8.IsWhole) (hc0 : ¬cond0_0 i) (hc1 : ¬cond0_1 i)
    (x0 : Vec F S1x2048x1024 .f32) (x1 : Vec F S64x1024 .f32) (x2 : Vec F S64x1024 .f32) (xs0 : Vec F S64x1 .f32) (xs1 : Vec F S64x1 .f32) (xs2 : Vec F S64x64 .f32) :
    sout0_B_1 c i arg2 harg2 arg3 harg3 arg4 harg4 arg5 harg5 arg6 harg6 arg7 harg7 arg8 harg8 hc0 hc1 x0 x1 x2 xs0 xs1 xs2 = stepL x0 x1 xs0 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  simp only [View.canon_cons_unit_zero (S := S64x1) hz2, View.canon_unit_zero (S := S64x1) hz2, View.readCov_unit_zero (S := S64x1) _ hz2,
    View.readCov_unit_zero (S := S64x64) _ hz2, View.readAt_eq_ld, harg2.read_unread, harg3.read_unread, harg4.read_unread,
    harg6.read_unread, harg7.read_unread, harg8.read_unread, View.ld_unit_zero (S := S1x2048x1024) hz3,
    View.ld_unit_zero (S := S64x1024) hz2, View.ld_unit_zero (S := S64x1) hz2, View.ld_unit_zero (S := S64x64) hz2]

theorem mid_acc (c : Dev nD) (i : grid0.Coords) (arg2 : Memref sig .tc .vmem S1x2048x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x64x64 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S64x64 .f32) (harg8 : arg8.IsWhole) (hc0 : ¬cond0_0 i) (hc1 : ¬cond0_1 i)
    (x0 : Vec F S1x2048x1024 .f32) (x1 : Vec F S64x1024 .f32) (x2 : Vec F S64x1024 .f32) (xs0 : Vec F S64x1 .f32) (xs1 : Vec F S64x1 .f32) (xs2 : Vec F S64x64 .f32) :
    sout0_B_2 c i arg2 harg2 arg3 harg3 arg4 harg4 arg5 harg5 arg6 harg6 arg7 harg7 arg8 harg8 hc0 hc1 x0 x1 x2 xs0 xs1 xs2 = stepA x0 x1 x2 xs0 xs2 := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  simp only [View.canon_cons_unit_zero (S := S64x64) hz2, View.canon_unit_zero (S := S64x64) hz2, View.readCov_unit_zero (S := S64x1) _ hz2,
    View.readCov_unit_zero (S := S64x64) _ hz2, View.readAt_eq_ld, harg2.read_unread, harg3.read_unread, harg4.read_unread,
    harg6.read_unread, harg7.read_unread, harg8.read_unread, View.ld_unit_zero (S := S1x2048x1024) hz3,
    View.ld_unit_zero (S := S64x1024) hz2, View.ld_unit_zero (S := S64x1) hz2, View.ld_unit_zero (S := S64x64) hz2]

theorem last_max (c : Dev nD) (i : grid0.Coords) (arg2 : Memref sig .tc .vmem S1x2048x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x64x64 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S64x64 .f32) (harg8 : arg8.IsWhole) (hc0 : ¬cond0_0 i) (hc1 : cond0_1 i)
    (x0 : Vec F S1x2048x1024 .f32) (x1 : Vec F S64x1024 .f32) (x2 : Vec F S64x1024 .f32) (xs0 : Vec F S64x1 .f32) (xs1 : Vec F S64x1 .f32) (xs2 : Vec F S64x64 .f32) :
    sout0_C_0 c i arg2 harg2 arg3 harg3 arg4 harg4 arg5 harg5 arg6 harg6 arg7 harg7 arg8 harg8 hc0 hc1 x0 x1 x2 xs0 xs1 xs2 = stepM x0 x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  simp only [View.canon_cons_unit_zero (S := S64x1) hz2, View.canon_unit_zero (S := S64x1) hz2, View.readCov_unit_zero (S := S64x1) _ hz2,
    View.readCov_unit_zero (S := S64x64) _ hz2, View.readAt_eq_ld, harg2.read_unread, harg3.read_unread, harg4.read_unread,
    harg6.read_unread, harg7.read_unread, harg8.read_unread, View.ld_unit_zero (S := S1x2048x1024) hz3,
    View.ld_unit_zero (S := S64x1024) hz2, View.ld_unit_zero (S := S64x1) hz2, View.ld_unit_zero (S := S64x64) hz2]

theorem last_sum (c : Dev nD) (i : grid0.Coords) (arg2 : Memref sig .tc .vmem S1x2048x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x64x64 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S64x64 .f32) (harg8 : arg8.IsWhole) (hc0 : ¬cond0_0 i) (hc1 : cond0_1 i)
    (x0 : Vec F S1x2048x1024 .f32) (x1 : Vec F S64x1024 .f32) (x2 : Vec F S64x1024 .f32) (xs0 : Vec F S64x1 .f32) (xs1 : Vec F S64x1 .f32) (xs2 : Vec F S64x64 .f32) :
    sout0_C_1 c i arg2 harg2 arg3 harg3 arg4 harg4 arg5 harg5 arg6 harg6 arg7 harg7 arg8 harg8 hc0 hc1 x0 x1 x2 xs0 xs1 xs2 = stepL x0 x1 xs0 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  simp only [View.canon_cons_unit_zero (S := S64x1) hz2, View.canon_unit_zero (S := S64x1) hz2, View.readCov_unit_zero (S := S64x1) _ hz2,
    View.readCov_unit_zero (S := S64x64) _ hz2, View.readAt_eq_ld, harg2.read_unread, harg3.read_unread, harg4.read_unread,
    harg6.read_unread, harg7.read_unread, harg8.read_unread, View.ld_unit_zero (S := S1x2048x1024) hz3,
    View.ld_unit_zero (S := S64x1024) hz2, View.ld_unit_zero (S := S64x1) hz2, View.ld_unit_zero (S := S64x64) hz2]

theorem last_acc (c : Dev nD) (i : grid0.Coords) (arg2 : Memref sig .tc .vmem S1x2048x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x64x64 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S64x64 .f32) (harg8 : arg8.IsWhole) (hc0 : ¬cond0_0 i) (hc1 : cond0_1 i)
    (x0 : Vec F S1x2048x1024 .f32) (x1 : Vec F S64x1024 .f32) (x2 : Vec F S64x1024 .f32) (xs0 : Vec F S64x1 .f32) (xs1 : Vec F S64x1 .f32) (xs2 : Vec F S64x64 .f32) :
    sout0_C_2 c i arg2 harg2 arg3 harg3 arg4 harg4 arg5 harg5 arg6 harg6 arg7 harg7 arg8 harg8 hc0 hc1 x0 x1 x2 xs0 xs1 xs2 = stepA x0 x1 x2 xs0 xs2 := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  simp only [View.canon_cons_unit_zero (S := S64x64) hz2, View.canon_unit_zero (S := S64x64) hz2, View.readCov_unit_zero (S := S64x1) _ hz2,
    View.readCov_unit_zero (S := S64x64) _ hz2, View.readAt_eq_ld, harg2.read_unread, harg3.read_unread, harg4.read_unread,
    harg6.read_unread, harg7.read_unread, harg8.read_unread, View.ld_unit_zero (S := S1x2048x1024) hz3,
    View.ld_unit_zero (S := S64x1024) hz2, View.ld_unit_zero (S := S64x1) hz2, View.ld_unit_zero (S := S64x64) hz2]

theorem last_out (c : Dev nD) (i : grid0.Coords) (arg2 : Memref sig .tc .vmem S1x2048x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x64x64 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S64x64 .f32) (harg8 : arg8.IsWhole) (hc0 : ¬cond0_0 i) (hc1 : cond0_1 i)
    (x0 : Vec F S1x2048x1024 .f32) (x1 : Vec F S64x1024 .f32) (x2 : Vec F S64x1024 .f32) (xs0 : Vec F S64x1 .f32) (xs1 : Vec F S64x1 .f32) (xs2 : Vec F S64x64 .f32) :
    out0_C_3 c i arg2 harg2 arg3 harg3 arg4 harg4 arg5 harg5 arg6 harg6 arg7 harg7 arg8 harg8 hc0 hc1 x0 x1 x2 xs0 xs1 xs2 = k0_pay3 (stepA x0 x1 x2 xs0 xs2) (stepL x0 x1 xs0 xs1) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  simp only [View.canon_cons_unit_zero (S := S1x64x64) hz3, View.canon_unit_zero (S := S1x64x64) hz3, View.readCov_unit_zero (S := S64x1) _ hz2,
    View.readCov_unit_zero (S := S64x64) _ hz2, View.readAt_eq_ld, harg2.read_unread, harg3.read_unread, harg4.read_unread,
    harg6.read_unread, harg7.read_unread, harg8.read_unread, View.ld_unit_zero (S := S1x2048x1024) hz3,
    View.ld_unit_zero (S := S64x1024) hz2, View.ld_unit_zero (S := S64x1) hz2, View.ld_unit_zero (S := S64x64) hz2]

end Cert.KernelIdeal.Pieces

end
-- ==== Proof.KernelStep.lean ====
/-
  One tile of the running pass on the body's own terms: if the carried maximum, sum and weighted sums of a row stand
  for the positions seen so far, then after the body's arithmetic on a further tile they stand for those positions
  together with the tile's; from the stored −∞, 0 and 0 they stand for the first tile alone; and the output entry the
  last tile stores is the attention quotient over all the positions seen.
-/
import proofs.«161483_j62869731279276_2_alg».proof.Proof.KernelTile
import proofs.«161483_j62869731279276_2_alg».proof.Proof.KernelPieces

noncomputable section

open Idealize.ShloMosaic Idealize.ShloMosaic.ValueIdx

namespace Cert.KernelIdeal.Step

open Cert.KernelIdeal Cert.KernelIdeal.Gen Cert.Attn Cert.KernelIdeal.Tile Cert.KernelIdeal.Pieces

variable (sc : Fin 8192 → ℝ) (vv : Fin 8192 → Fin 64 → ℝ)
variable (x0 : Vec Ideal S1x2048x1024 .f32) (x1 x2 : Vec Ideal S64x1024 .f32)

theorem stepM_apply (mo : Vec Ideal S64x1 .f32) (r : Fin 64) :
    stepM (F := Ideal) x0 x1 mo (ix2 r (0 : Fin 1)) = newMax (mo (ix2 r (0 : Fin 1))) (Tile.S x0 x1 r) := by
  show k0_pay2 (F := Ideal) (k0_pay10 x0 x1 mo) (ix2 r (0 : Fin 1)) = _
  rw [pay2_eq, pay10_apply]

theorem stepL_apply (mo lo : Vec Ideal S64x1 .f32) (r : Fin 64) :
    stepL (F := Ideal) x0 x1 mo lo (ix2 r (0 : Fin 1))
      = newSum (mo (ix2 r (0 : Fin 1))) (lo (ix2 r (0 : Fin 1))) (Tile.S x0 x1 r) :=
  pay13_apply x0 x1 mo lo r

theorem stepA_apply (mo : Vec Ideal S64x1 .f32) (ao : Vec Ideal S64x64 .f32) (r : Fin 64) :
    (fun h => stepA (F := Ideal) x0 x1 x2 mo ao (ix2 r h))
      = newAcc (mo (ix2 r (0 : Fin 1))) (fun h => ao (ix2 r h)) (Tile.S x0 x1 r) (Tile.Vt x0 x2) :=
  funext fun h => pay1_apply x0 x1 x2 mo ao r h

/-- A later tile. -/
theorem later (S T : Finset (Fin 8192)) (hd : Disjoint S T) (pos : Fin 2048 → Fin 8192)
    (hT : ∀ f : Fin 8192 → ℝ, ∑ σ ∈ T, f σ = ∑ k : Fin 2048, f (pos k)) (r : Fin 64)
    (hS : ∀ s, Tile.S x0 x1 r s = (sc (pos s) : EReal)) (hV : ∀ s h, Tile.Vt x0 x2 s h = (vv (pos s) h : EReal))
    (mo lo : Vec Ideal S64x1 .f32) (ao : Vec Ideal S64x64 .f32)
    (hR : Rep sc vv S (mo (ix2 r (0 : Fin 1))) (lo (ix2 r (0 : Fin 1))) (fun h => ao (ix2 r h))) :
    Rep sc vv (S ∪ T) (stepM (F := Ideal) x0 x1 mo (ix2 r (0 : Fin 1))) (stepL (F := Ideal) x0 x1 mo lo (ix2 r (0 : Fin 1)))
      (fun h => stepA (F := Ideal) x0 x1 x2 mo ao (ix2 r h)) := by
  rw [stepM_apply, stepL_apply, stepA_apply]
  exact rep_step sc vv S T hd (by norm_num) pos hT _ _ hS hV _ _ _ hR

/-- The first tile of a batch. -/
theorem first (T : Finset (Fin 8192)) (pos : Fin 2048 → Fin 8192)
    (hT : ∀ f : Fin 8192 → ℝ, ∑ σ ∈ T, f σ = ∑ k : Fin 2048, f (pos k)) (r : Fin 64)
    (hS : ∀ s, Tile.S x0 x1 r s = (sc (pos s) : EReal)) (hV : ∀ s h, Tile.Vt x0 x2 s h = (vv (pos s) h : EReal)) :
    Rep sc vv T (stepM (F := Ideal) x0 x1 (k0_pay4 (F := Ideal)) (ix2 r (0 : Fin 1)))
      (stepL (F := Ideal) x0 x1 (k0_pay4 (F := Ideal)) (k0_pay5 (F := Ideal)) (ix2 r (0 : Fin 1)))
      (fun h => stepA (F := Ideal) x0 x1 x2 (k0_pay4 (F := Ideal)) (k0_pay6 (F := Ideal)) (ix2 r h)) := by
  rw [stepM_apply, stepL_apply, stepA_apply, pay4_apply, pay5_apply]
  have e : (fun h => k0_pay6 (F := Ideal) (ix2 r h)) = fun _ => 0 := funext fun h => pay6_apply _
  rw [e]
  exact rep_first sc vv T (by norm_num) pos hT _ _ hS hV

/-- The output entry of the last tile. -/
theorem output (S : Finset (Fin 8192)) (hne : S.Nonempty) (mo lo : Vec Ideal S64x1 .f32) (ao : Vec Ideal S64x64 .f32) (r : Fin 64)
    (hR : Rep sc vv S (stepM (F := Ideal) x0 x1 mo (ix2 r (0 : Fin 1))) (stepL (F := Ideal) x0 x1 mo lo (ix2 r (0 : Fin 1)))
      (fun h => stepA (F := Ideal) x0 x1 x2 mo ao (ix2 r h))) (u : Fin 1) (h : Fin 64) :
    k0_pay3 (F := Ideal) (stepA x0 x1 x2 mo ao) (stepL x0 x1 mo lo) (ix3 u r h)
      = (((∑ σ ∈ S, Real.exp (sc σ) * vv σ h) / (∑ σ ∈ S, Real.exp (sc σ)) : ℝ) : EReal) := by
  rw [pay3_apply]
  exact rep_quotient sc vv S hne _ _ _ hR h

end Cert.KernelIdeal.Step

end
-- ==== Proof.Tiles.lean ====
/-
  The 8192 positions of a batch as four runs of 2048: the positions below 2048·(j+1) are those below 2048·j together
  with the j-th run, the first run is the positions below 2048, the four runs are everything, and a sum over a run is
  a sum over its 2048 offsets.
-/
import Mathlib

namespace Cert.Tiles

open scoped BigOperators

/-- The positions seen after run `j`. -/
def seen (j : ℕ) : Finset (Fin 8192) := Finset.univ.filter fun σ => σ.val < 2048 * (j + 1)
/-- Run `j`. -/
def run (j : ℕ) : Finset (Fin 8192) := Finset.univ.filter fun σ => 2048 * j ≤ σ.val ∧ σ.val < 2048 * (j + 1)
/-- Offset `s` of run `j`. -/
def pos (j : ℕ) (hj : j < 4) (s : Fin 2048) : Fin 8192 := ⟨2048 * j + s.val, by have := s.isLt; omega⟩

theorem seen_zero : seen 0 = run 0 := by
  ext σ; simp [seen, run]

theorem seen_succ (j : ℕ) : seen (j + 1) = seen j ∪ run (j + 1) := by
  ext σ; simp only [seen, run, Finset.mem_union, Finset.mem_filter, Finset.mem_univ, true_and]; omega

theorem disjoint_seen_run (j : ℕ) : Disjoint (seen j) (run (j + 1)) := by
  rw [Finset.disjoint_left]
  intro σ h1 h2
  simp only [seen, run, Finset.mem_filter, Finset.mem_univ, true_and] at h1 h2
  omega

theorem seen_three : seen 3 = Finset.univ := by
  ext σ; simp only [seen, Finset.mem_filter, Finset.mem_univ, true_and, iff_true]; have := σ.isLt; omega

theorem sum_run {M : Type*} [AddCommMonoid M] (j : ℕ) (hj : j < 4) (f : Fin 8192 → M) :
    ∑ σ ∈ run j, f σ = ∑ s : Fin 2048, f (pos j hj s) := by
  symm
  refine Finset.sum_bij (fun s _ => pos j hj s) ?_ ?_ ?_ ?_
  · intro s _
    simp only [run, pos, Finset.mem_filter, Finset.mem_univ, true_and]
    have := s.isLt; omega
  · intro a _ b _ h
    have := congrArg Fin.val h
    simp only [pos] at this
    exact Fin.ext (by omega)
  · intro σ hσ
    simp only [run, Finset.mem_filter, Finset.mem_univ, true_and] at hσ
    exact ⟨⟨σ.val - 2048 * j, by omega⟩, Finset.mem_univ _, Fin.ext (by simp only [pos]; omega)⟩
  · intro s _; rfl

end Cert.Tiles
-- ==== Proof.LibHostDot.lean ====
/-
  The host's matrix products read entry by entry on the extended reals: rows against rows (A · Bᵀ) and rows against
  columns (A · B), each entry the sum over the contracted index of the operands' products.
-/
import Idealize.ShloMosaic.Lib.Pipeline.Value
import Idealize.ShloMosaic.Lib.ValueIdx
import Idealize.ShloMosaic.PureOps.Ideal.Laws

namespace Cert.LibHostDot

open Idealize.ShloMosaic Idealize.ShloMosaic.ValueIdx

/-- The host's product of rows with rows: entry `(p, q)` is the sum over `k` of `A[p, k] · B[q, k]`. The record's facts
    (one contracted axis of extent `K`; the free axes' coordinates) are hypotheses, closed at a literal record by `rfl`
    and by unfolding the index functions. -/
theorem dotGeneral_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    Host.dotGeneral d prec lhs rhs (ix2 p q) = ∑ k : Fin K, lhs (ix2 p k) * rhs (ix2 q k) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- The host's product of rows with columns: entry `(p, q)` is the sum over `k` of `A[p, k] · B[k, q]`. -/
theorem dotGeneral_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

end Cert.LibHostDot
-- ==== Proof.KernelRun.lean ====
/-
  The run of the kernel, read: after the tile at grid point n (batch n / 4, tile n % 4) the three carried buffers hold,
  row by row, a real reference point and the two running sums over the positions of the batch seen so far; so the output
  block stored at a batch's last tile is the attention quotient over all 8192 positions.

  The blocks: at point n the first window holds rows 2048·(n % 4) … of batch n / 4 of x; the second the folded query
  qk = (latents · Wqᵀ) · Wk, which the host computes before the call; the third Wv.
-/
import proofs.«161483_j62869731279276_2_alg».proof.Proof.KernelStep
import proofs.«161483_j62869731279276_2_alg».proof.Proof.Tiles
import proofs.«161483_j62869731279276_2_alg».proof.Proof.LibHostDot
import proofs.«161483_j62869731279276_2_alg».proof.Proof.Gen.KernelIdeal.Value
import Idealize.ShloMosaic.Lib.Pipeline.Value
import Idealize.ShloMosaic.Lib.StableHlo.Run

noncomputable section

open Idealize.ShloMosaic Idealize.ShloMosaic.ValueIdx Idealize.ShloMosaic.TcCoe Idealize.SL.Sem
open Idealize.ShloMosaic.Pipeline (Dat)

namespace Cert.KernelIdeal.Run

open Cert.KernelIdeal Cert.KernelIdeal.Gen Cert.Attn Cert.Tiles Cert.KernelIdeal.Pieces Cert.KernelIdeal.Step Cert.LibHostDot

theorem d1_l0 (j) (k) : (dot_S64x256_S64x256_S64x64_1_1_0_0_n_n.lhsIdx j k 0).val = (j 0).val := by
  unfold DotDims.lhsIdx
  rw [dif_neg (show ¬(0 : Fin S64x256.rank) ∈ dot_S64x256_S64x256_S64x64_1_1_0_0_n_n.lhsBatch by decide), dif_pos (show (0 : Fin S64x256.rank) ∈ dot_S64x256_S64x256_S64x64_1_1_0_0_n_n.lhsNonContracting by decide)]
  rfl
theorem d1_r0 (j) (k) : (dot_S64x256_S64x256_S64x64_1_1_0_0_n_n.rhsIdx j k 0).val = (j 1).val := by
  unfold DotDims.rhsIdx
  rw [dif_neg (show ¬(0 : Fin S64x256.rank) ∈ dot_S64x256_S64x256_S64x64_1_1_0_0_n_n.rhsBatch by decide), dif_pos (show (0 : Fin S64x256.rank) ∈ dot_S64x256_S64x256_S64x64_1_1_0_0_n_n.rhsNonContracting by decide)]
  rfl
theorem d2_l0 (j) (k) : (dot_S64x64_S64x1024_S64x1024_1_0_0_1_n_n.lhsIdx j k 0).val = (j 0).val := by
  unfold DotDims.lhsIdx
  rw [dif_neg (show ¬(0 : Fin S64x64.rank) ∈ dot_S64x64_S64x1024_S64x1024_1_0_0_1_n_n.lhsBatch by decide), dif_pos (show (0 : Fin S64x64.rank) ∈ dot_S64x64_S64x1024_S64x1024_1_0_0_1_n_n.lhsNonContracting by decide)]
  rfl
theorem d2_r1 (j) (k) : (dot_S64x64_S64x1024_S64x1024_1_0_0_1_n_n.rhsIdx j k 1).val = (j 1).val := by
  unfold DotDims.rhsIdx
  rw [dif_neg (show ¬(1 : Fin S64x1024.rank) ∈ dot_S64x64_S64x1024_S64x1024_1_0_0_1_n_n.rhsBatch by decide), dif_pos (show (1 : Fin S64x1024.rank) ∈ dot_S64x64_S64x1024_S64x1024_1_0_0_1_n_n.rhsNonContracting by decide)]
  rfl

/-- The folded query as the host computes it, entry by entry, for real arguments. -/
theorem qk_entry (lat wq : SL.Idx → EReal) (wk : SW.Idx → EReal)
    (hl : ∀ i, ∃ r : ℝ, lat i = (r : EReal)) (hq : ∀ i, ∃ r : ℝ, wq i = (r : EReal)) (hk : ∀ i, ∃ r : ℝ, wk i = (r : EReal))
    (l : Fin 64) (e : Fin 1024) :
    Host.dotGeneral (F := Ideal) (φ₁ := .f32) (φ₂ := .f32) dot_S64x64_S64x1024_S64x1024_1_0_0_1_n_n none
      (Host.dotGeneral (F := Ideal) (φ₁ := .f32) (φ₂ := .f32) dot_S64x256_S64x256_S64x64_1_1_0_0_n_n none lat wq) wk (ix2 l e)
      = ((qk lat wq wk l e : ℝ) : EReal) := by
  choose lr hlr using hl
  choose qr hqr using hq
  choose kr hkr using hk
  obtain rfl : lat = fun i => ((lr i : ℝ) : EReal) := funext hlr
  obtain rfl : wq = fun i => ((qr i : ℝ) : EReal) := funext hqr
  obtain rfl : wk = fun i => ((kr i : ℝ) : EReal) := funext hkr
  rw [dotGeneral_rows_cols_apply dot_S64x64_S64x1024_S64x1024_1_0_0_1_n_n rfl rfl rfl rfl d2_l0 d2_r1]
  simp only [dotGeneral_rows_rows_apply dot_S64x256_S64x256_S64x64_1_1_0_0_n_n rfl rfl rfl rfl d1_l0 d1_r0]
  unfold qk qry
  simp only [EReal.toReal_coe, coe_sum, EReal.coe_mul]

/-- A tile's scores and values for real blocks. -/
theorem S_entry (x0 : Vec Ideal S1x2048x1024 .f32) (x1 : Vec Ideal S64x1024 .f32) (xr : Fin 2048 → Fin 1024 → ℝ) (qr : Fin 64 → Fin 1024 → ℝ)
    (hx : ∀ s e, x0 (ix3 (0 : Fin 1) s e) = ((xr s e : ℝ) : EReal)) (hq : ∀ l e, x1 (ix2 l e) = ((qr l e : ℝ) : EReal)) (r : Fin 64) (s : Fin 2048) :
    Tile.S x0 x1 r s = (((∑ e : Fin 1024, qr r e * xr s e) * (1 / 8) : ℝ) : EReal) := by
  unfold Tile.S
  rw [ofBits_eighth]
  simp only [hx, hq, ← EReal.coe_mul, ← coe_sum]

theorem Vt_entry (x0 : Vec Ideal S1x2048x1024 .f32) (x2 : Vec Ideal S64x1024 .f32) (xr : Fin 2048 → Fin 1024 → ℝ) (wr : Fin 64 → Fin 1024 → ℝ)
    (hx : ∀ s e, x0 (ix3 (0 : Fin 1) s e) = ((xr s e : ℝ) : EReal)) (hw : ∀ h e, x2 (ix2 h e) = ((wr h e : ℝ) : EReal)) (s : Fin 2048) (h : Fin 64) :
    Tile.Vt x0 x2 s h = ((∑ e : Fin 1024, xr s e * wr h e : ℝ) : EReal) := by
  unfold Tile.Vt
  simp only [hx, hw, ← EReal.coe_mul, ← coe_sum]

variable (m : (ℓ : Loc nD τ sig) → Buf (Elt Ideal) ℓ) (ρ : Dev nD → PrngReg) (c : Dev nD)

abbrev aX : SX.Idx → EReal := m ((c : Thread nD τ).loc main_arg0)
abbrev aL : SL.Idx → EReal := m ((c : Thread nD τ).loc main_arg1)
abbrev aQ : SL.Idx → EReal := m ((c : Thread nD τ).loc main_arg2)
abbrev aK : SW.Idx → EReal := m ((c : Thread nD τ).loc main_arg3)
abbrev aV : SW.Idx → EReal := m ((c : Thread nD τ).loc main_arg4)

/-- Every entry of the five argument arrays is a real number. -/
structure RealArgs : Prop where
  hX : ∀ i, ∃ r : ℝ, aX m c i = (r : EReal)
  hL : ∀ i, ∃ r : ℝ, aL m c i = (r : EReal)
  hQ : ∀ i, ∃ r : ℝ, aQ m c i = (r : EReal)
  hK : ∀ i, ∃ r : ℝ, aK m c i = (r : EReal)
  hV : ∀ i, ∃ r : ℝ, aV m c i = (r : EReal)

theorem coe_toReal_of {x : EReal} (h : ∃ r : ℝ, x = (r : EReal)) : x = ((x.toReal : ℝ) : EReal) := by
  obtain ⟨r, rfl⟩ := h; simp

theorem idx0 : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)

/-- The first window's block at a point: 2048 rows of one batch of x. -/
theorem x_blk (t : Fin cfg0.N) (b : Fin 8) (hb : b.val = t.val / 4) (j : ℕ) (hj : j < 4) (hjt : j = t.val % 4) (s : Fin 2048) (e : Fin 1024) :
    (iblk m c 0 t : Vec Ideal S1x2048x1024 .f32) (ix3 (0 : Fin 1) s e) = aX m c (ix3 b (pos j hj s) e) := by
  unfold iblk
  rw [View.read_apply]
  show V m c main_arg0 _ = _
  rw [V_main_arg0]
  refine congrArg _ (funext fun a => Fin.ext ?_)
  match a with
  | ⟨0, _⟩ => show win0_0.index t 0 * 1 + 1 * 0 = b.val; rw [(idx0 t).1, hb]; omega
  | ⟨1, _⟩ => show win0_0.index t 1 * 2048 + 1 * s.val = 2048 * j + s.val; rw [(idx0 t).2.1, hjt]; omega
  | ⟨2, _⟩ => show win0_0.index t 2 * 1024 + 1 * e.val = e.val; rw [(idx0 t).2.2]; omega

/-- What the host has put in the second window's array before the call. -/
theorem qk_V : (V m c main_v1 : SW.Idx → EReal) = Host.dotGeneral (F := Ideal) (φ₁ := .f32) (φ₂ := .f32) dot_S64x64_S64x1024_S64x1024_1_0_0_1_n_n none
      (Host.dotGeneral (F := Ideal) (φ₁ := .f32) (φ₂ := .f32) dot_S64x256_S64x256_S64x64_1_1_0_0_n_n none (aL m c) (aQ m c)) (aK m c) := by
  dsimp only [Gen.V, Gen.hostOps0]
  after_results

/-- The second window's block is the whole folded query. -/
theorem qk_blk (hr : RealArgs m c) (t : Fin cfg0.N) (l : Fin 64) (e : Fin 1024) :
    (iblk m c 1 t : Vec Ideal S64x1024 .f32) (ix2 l e) = ((qk (aL m c) (aQ m c) (aK m c) l e : ℝ) : EReal) := by
  have e1 : (iblk m c 1 t : Vec Ideal S64x1024 .f32) (ix2 l e) = (V m c main_v1 : SW.Idx → EReal) (ix2 l e) := by
    unfold iblk
    rw [View.read_apply]
    show V m c main_v1 _ = _
    refine congrArg _ (funext fun a => Fin.ext ?_)
    match a with
    | ⟨0, _⟩ => show win0_1.index t 0 * 64 + 1 * l.val = l.val; rw [(idx1 t).1]; omega
    | ⟨1, _⟩ => show win0_1.index t 1 * 1024 + 1 * e.val = e.val; rw [(idx1 t).2]; omega
  rw [e1, qk_V]
  exact qk_entry _ _ _ hr.hL hr.hQ hr.hK l e

/-- The third window's block is the whole of Wv. -/
theorem wv_blk (t : Fin cfg0.N) (h : Fin 64) (e : Fin 1024) :
    (iblk m c 2 t : Vec Ideal S64x1024 .f32) (ix2 h e) = aV m c (ix2 h e) := by
  unfold iblk
  rw [View.read_apply]
  show V m c main_arg4 _ = _
  rw [V_main_arg4]
  refine congrArg _ (funext fun a => Fin.ext ?_)
  match a with
  | ⟨0, _⟩ => show win0_2.index t 0 * 64 + 1 * h.val = h.val; rw [(idx2 t).1]; omega
  | ⟨1, _⟩ => show win0_2.index t 1 * 1024 + 1 * e.val = e.val; rw [(idx2 t).2]; omega

/-- The scores and the values of the tile at a point are the specification's, at the tile's positions. -/
theorem S_blk (hr : RealArgs m c) (t : Fin cfg0.N) (b : Fin 8) (hb : b.val = t.val / 4) (j : ℕ) (hj : j < 4) (hjt : j = t.val % 4)
    (r : Fin 64) (s : Fin 2048) :
    Tile.S (iblk m c 0 t) (iblk m c 1 t) r s = ((score (aX m c) (aL m c) (aQ m c) (aK m c) b r (pos j hj s) : ℝ) : EReal) := by
  rw [score_folded]
  exact S_entry (iblk m c 0 t) (iblk m c 1 t) (fun s e => (aX m c (ix3 b (pos j hj s) e)).toReal) (qk (aL m c) (aQ m c) (aK m c))
    (fun s e => (x_blk m c t b hb j hj hjt s e).trans (coe_toReal_of (hr.hX _))) (fun l e => qk_blk m c hr t l e) r s

theorem Vt_blk (hr : RealArgs m c) (t : Fin cfg0.N) (b : Fin 8) (hb : b.val = t.val / 4) (j : ℕ) (hj : j < 4) (hjt : j = t.val % 4)
    (s : Fin 2048) (h : Fin 64) :
    Tile.Vt (iblk m c 0 t) (iblk m c 2 t) s h = ((value (aX m c) (aV m c) b (pos j hj s) h : ℝ) : EReal) :=
  Vt_entry (iblk m c 0 t) (iblk m c 2 t) (fun s e => (aX m c (ix3 b (pos j hj s) e)).toReal) (fun h e => (aV m c (ix2 h e)).toReal)
    (fun s e => (x_blk m c t b hb j hj hjt s e).trans (coe_toReal_of (hr.hX _)))
    (fun h e => (wv_blk m c t h e).trans (coe_toReal_of (hr.hV _))) s h

/-! ## What the carried buffers hold after each point -/

/-- At a batch's first tile. -/
theorem state_first (n : ℕ) (hn : n < cfg0.N) (h0 : n % 4 = 0) :
    (outsAt0 m c n hn).2.1 = stepM (iblk m c 0 (⟨n, hn⟩ : Fin cfg0.N)) (iblk m c 1 (⟨n, hn⟩ : Fin cfg0.N)) (k0_pay4 (F := Ideal))
    ∧ (outsAt0 m c n hn).2.2.1 = stepL (iblk m c 0 (⟨n, hn⟩ : Fin cfg0.N)) (iblk m c 1 (⟨n, hn⟩ : Fin cfg0.N)) (k0_pay4 (F := Ideal)) (k0_pay5 (F := Ideal))
    ∧ (outsAt0 m c n hn).2.2.2 = stepA (iblk m c 0 (⟨n, hn⟩ : Fin cfg0.N)) (iblk m c 1 (⟨n, hn⟩ : Fin cfg0.N)) (iblk m c 2 (⟨n, hn⟩ : Fin cfg0.N)) (k0_pay4 (F := Ideal)) (k0_pay6 (F := Ideal)) := by
  have h1 : ¬n % 4 = 3 := by omega
  rw [outsAt0_A m c (⟨n, hn⟩ : Fin cfg0.N) h0 h1]
  exact ⟨first_max c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) scM0_2 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)),
    first_sum c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) scM0_2 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)),
    first_acc c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) scM0_2 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N))⟩

/-- At a later tile of a batch, over what the tile before left. -/
theorem state_later (n : ℕ) (hn : n + 1 < cfg0.N) (h0 : ¬(n + 1) % 4 = 0) :
    (outsAt0 m c (n + 1) hn).2.1 = stepM (iblk m c 0 (⟨n + 1, hn⟩ : Fin cfg0.N)) (iblk m c 1 (⟨n + 1, hn⟩ : Fin cfg0.N)) (outsAt0 m c n (Nat.lt_of_succ_lt hn)).2.1
    ∧ (outsAt0 m c (n + 1) hn).2.2.1 = stepL (iblk m c 0 (⟨n + 1, hn⟩ : Fin cfg0.N)) (iblk m c 1 (⟨n + 1, hn⟩ : Fin cfg0.N)) (outsAt0 m c n (Nat.lt_of_succ_lt hn)).2.1 (outsAt0 m c n (Nat.lt_of_succ_lt hn)).2.2.1
    ∧ (outsAt0 m c (n + 1) hn).2.2.2 = stepA (iblk m c 0 (⟨n + 1, hn⟩ : Fin cfg0.N)) (iblk m c 1 (⟨n + 1, hn⟩ : Fin cfg0.N)) (iblk m c 2 (⟨n + 1, hn⟩ : Fin cfg0.N)) (outsAt0 m c n (Nat.lt_of_succ_lt hn)).2.1 (outsAt0 m c n (Nat.lt_of_succ_lt hn)).2.2.2 := by
  by_cases h1 : (n + 1) % 4 = 3
  · rw [outsAt0_C m c (⟨n + 1, hn⟩ : Fin cfg0.N) h0 h1]
    exact ⟨last_max c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) scM0_0 (Memref.isWhole_whole _) scM0_1 (Memref.isWhole_whole _) scM0_2 (Memref.isWhole_whole _) (fun h => h0 ((hcond0_0 (⟨n + 1, hn⟩ : Fin cfg0.N)).mp h)) ((hcond0_1 (⟨n + 1, hn⟩ : Fin cfg0.N)).mpr h1) (iblk m c 0 (⟨n + 1, hn⟩ : Fin cfg0.N)) (iblk m c 1 (⟨n + 1, hn⟩ : Fin cfg0.N)) (iblk m c 2 (⟨n + 1, hn⟩ : Fin cfg0.N)) (outsAt0 m c n (Nat.lt_of_succ_lt hn)).2.1 (outsAt0 m c n (Nat.lt_of_succ_lt hn)).2.2.1 (outsAt0 m c n (Nat.lt_of_succ_lt hn)).2.2.2,
      last_sum c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) scM0_0 (Memref.isWhole_whole _) scM0_1 (Memref.isWhole_whole _) scM0_2 (Memref.isWhole_whole _) (fun h => h0 ((hcond0_0 (⟨n + 1, hn⟩ : Fin cfg0.N)).mp h)) ((hcond0_1 (⟨n + 1, hn⟩ : Fin cfg0.N)).mpr h1) (iblk m c 0 (⟨n + 1, hn⟩ : Fin cfg0.N)) (iblk m c 1 (⟨n + 1, hn⟩ : Fin cfg0.N)) (iblk m c 2 (⟨n + 1, hn⟩ : Fin cfg0.N)) (outsAt0 m c n (Nat.lt_of_succ_lt hn)).2.1 (outsAt0 m c n (Nat.lt_of_succ_lt hn)).2.2.1 (outsAt0 m c n (Nat.lt_of_succ_lt hn)).2.2.2,
      last_acc c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) scM0_0 (Memref.isWhole_whole _) scM0_1 (Memref.isWhole_whole _) scM0_2 (Memref.isWhole_whole _) (fun h => h0 ((hcond0_0 (⟨n + 1, hn⟩ : Fin cfg0.N)).mp h)) ((hcond0_1 (⟨n + 1, hn⟩ : Fin cfg0.N)).mpr h1) (iblk m c 0 (⟨n + 1, hn⟩ : Fin cfg0.N)) (iblk m c 1 (⟨n + 1, hn⟩ : Fin cfg0.N)) (iblk m c 2 (⟨n + 1, hn⟩ : Fin cfg0.N)) (outsAt0 m c n (Nat.lt_of_succ_lt hn)).2.1 (outsAt0 m c n (Nat.lt_of_succ_lt hn)).2.2.1 (outsAt0 m c n (Nat.lt_of_succ_lt hn)).2.2.2⟩
  · rw [outsAt0_B m c (⟨n + 1, hn⟩ : Fin cfg0.N) h0 h1]
    exact ⟨mid_max c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) scM0_0 (Memref.isWhole_whole _) scM0_1 (Memref.isWhole_whole _) scM0_2 (Memref.isWhole_whole _) (fun h => h0 ((hcond0_0 (⟨n + 1, hn⟩ : Fin cfg0.N)).mp h)) (fun h => h1 ((hcond0_1 (⟨n + 1, hn⟩ : Fin cfg0.N)).mp h)) (iblk m c 0 (⟨n + 1, hn⟩ : Fin cfg0.N)) (iblk m c 1 (⟨n + 1, hn⟩ : Fin cfg0.N)) (iblk m c 2 (⟨n + 1, hn⟩ : Fin cfg0.N)) (outsAt0 m c n (Nat.lt_of_succ_lt hn)).2.1 (outsAt0 m c n (Nat.lt_of_succ_lt hn)).2.2.1 (outsAt0 m c n (Nat.lt_of_succ_lt hn)).2.2.2,
      mid_sum c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) scM0_0 (Memref.isWhole_whole _) scM0_1 (Memref.isWhole_whole _) scM0_2 (Memref.isWhole_whole _) (fun h => h0 ((hcond0_0 (⟨n + 1, hn⟩ : Fin cfg0.N)).mp h)) (fun h => h1 ((hcond0_1 (⟨n + 1, hn⟩ : Fin cfg0.N)).mp h)) (iblk m c 0 (⟨n + 1, hn⟩ : Fin cfg0.N)) (iblk m c 1 (⟨n + 1, hn⟩ : Fin cfg0.N)) (iblk m c 2 (⟨n + 1, hn⟩ : Fin cfg0.N)) (outsAt0 m c n (Nat.lt_of_succ_lt hn)).2.1 (outsAt0 m c n (Nat.lt_of_succ_lt hn)).2.2.1 (outsAt0 m c n (Nat.lt_of_succ_lt hn)).2.2.2,
      mid_acc c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) scM0_0 (Memref.isWhole_whole _) scM0_1 (Memref.isWhole_whole _) scM0_2 (Memref.isWhole_whole _) (fun h => h0 ((hcond0_0 (⟨n + 1, hn⟩ : Fin cfg0.N)).mp h)) (fun h => h1 ((hcond0_1 (⟨n + 1, hn⟩ : Fin cfg0.N)).mp h)) (iblk m c 0 (⟨n + 1, hn⟩ : Fin cfg0.N)) (iblk m c 1 (⟨n + 1, hn⟩ : Fin cfg0.N)) (iblk m c 2 (⟨n + 1, hn⟩ : Fin cfg0.N)) (outsAt0 m c n (Nat.lt_of_succ_lt hn)).2.1 (outsAt0 m c n (Nat.lt_of_succ_lt hn)).2.2.1 (outsAt0 m c n (Nat.lt_of_succ_lt hn)).2.2.2⟩

/-- The output block a batch's last tile stores. -/
theorem state_out (n : ℕ) (hn : n + 1 < cfg0.N) (h0 : ¬(n + 1) % 4 = 0) (h1 : (n + 1) % 4 = 3) :
    (outsAt0 m c (n + 1) hn).1 = k0_pay3 (stepA (iblk m c 0 (⟨n + 1, hn⟩ : Fin cfg0.N)) (iblk m c 1 (⟨n + 1, hn⟩ : Fin cfg0.N)) (iblk m c 2 (⟨n + 1, hn⟩ : Fin cfg0.N)) (outsAt0 m c n (Nat.lt_of_succ_lt hn)).2.1 (outsAt0 m c n (Nat.lt_of_succ_lt hn)).2.2.2) (stepL (iblk m c 0 (⟨n + 1, hn⟩ : Fin cfg0.N)) (iblk m c 1 (⟨n + 1, hn⟩ : Fin cfg0.N)) (outsAt0 m c n (Nat.lt_of_succ_lt hn)).2.1 (outsAt0 m c n (Nat.lt_of_succ_lt hn)).2.2.1) := by
  rw [outsAt0_C m c (⟨n + 1, hn⟩ : Fin cfg0.N) h0 h1]
  exact last_out c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) scM0_0 (Memref.isWhole_whole _) scM0_1 (Memref.isWhole_whole _) scM0_2 (Memref.isWhole_whole _) (fun h => h0 ((hcond0_0 (⟨n + 1, hn⟩ : Fin cfg0.N)).mp h)) ((hcond0_1 (⟨n + 1, hn⟩ : Fin cfg0.N)).mpr h1) (iblk m c 0 (⟨n + 1, hn⟩ : Fin cfg0.N)) (iblk m c 1 (⟨n + 1, hn⟩ : Fin cfg0.N)) (iblk m c 2 (⟨n + 1, hn⟩ : Fin cfg0.N)) (outsAt0 m c n (Nat.lt_of_succ_lt hn)).2.1 (outsAt0 m c n (Nat.lt_of_succ_lt hn)).2.2.1 (outsAt0 m c n (Nat.lt_of_succ_lt hn)).2.2.2

/-- THE INVARIANT: after point n the carried buffers stand, row by row, for the positions of batch n / 4 in its
    tiles 0 … n % 4. -/
theorem inv (hr : RealArgs m c) : ∀ (n : ℕ) (hn : n < cfg0.N) (b : Fin 8) (hb : b.val = n / 4) (r : Fin 64),
    Rep (score (aX m c) (aL m c) (aQ m c) (aK m c) b r) (value (aX m c) (aV m c) b) (seen (n % 4))
      ((outsAt0 m c n hn).2.1 (ix2 r (0 : Fin 1))) ((outsAt0 m c n hn).2.2.1 (ix2 r (0 : Fin 1)))
      (fun h => (outsAt0 m c n hn).2.2.2 (ix2 r h))
  | 0, hn, b, hb, r => by
    obtain ⟨e0, e1, e2⟩ := state_first m c 0 hn rfl
    rw [e0, e1, e2]
    show Rep _ _ (seen 0) _ _ _
    rw [seen_zero]
    exact first _ _ (iblk m c 0 (⟨0, hn⟩ : Fin cfg0.N)) (iblk m c 1 (⟨0, hn⟩ : Fin cfg0.N)) (iblk m c 2 (⟨0, hn⟩ : Fin cfg0.N)) (run 0) (pos 0 (by norm_num))
      (fun f => sum_run 0 (by norm_num) f) r
      (fun s => S_blk m c hr (⟨0, hn⟩ : Fin cfg0.N) b hb 0 (by norm_num) rfl r s)
      (fun s h => Vt_blk m c hr (⟨0, hn⟩ : Fin cfg0.N) b hb 0 (by norm_num) rfl s h)
  | n + 1, hn, b, hb, r => by
    by_cases h0 : (n + 1) % 4 = 0
    · obtain ⟨e0, e1, e2⟩ := state_first m c (n + 1) hn h0
      rw [e0, e1, e2, h0, seen_zero]
      exact first _ _ (iblk m c 0 (⟨n + 1, hn⟩ : Fin cfg0.N)) (iblk m c 1 (⟨n + 1, hn⟩ : Fin cfg0.N)) (iblk m c 2 (⟨n + 1, hn⟩ : Fin cfg0.N)) (run 0) (pos 0 (by norm_num))
        (fun f => sum_run 0 (by norm_num) f) r
        (fun s => S_blk m c hr (⟨n + 1, hn⟩ : Fin cfg0.N) b hb 0 (by norm_num) h0.symm r s)
        (fun s h => Vt_blk m c hr (⟨n + 1, hn⟩ : Fin cfg0.N) b hb 0 (by norm_num) h0.symm s h)
    · obtain ⟨e0, e1, e2⟩ := state_later m c n hn h0
      have hN : n + 1 < 32 := lt_of_lt_of_eq hn N_0
      have hj : (n + 1) % 4 = n % 4 + 1 := by omega
      have hj4 : n % 4 + 1 < 4 := by omega
      rw [e0, e1, e2, hj, seen_succ]
      exact later _ _ (iblk m c 0 (⟨n + 1, hn⟩ : Fin cfg0.N)) (iblk m c 1 (⟨n + 1, hn⟩ : Fin cfg0.N)) (iblk m c 2 (⟨n + 1, hn⟩ : Fin cfg0.N)) (seen (n % 4)) (run (n % 4 + 1)) (disjoint_seen_run _) (pos (n % 4 + 1) hj4)
        (fun f => sum_run (n % 4 + 1) hj4 f) r
        (fun s => S_blk m c hr (⟨n + 1, hn⟩ : Fin cfg0.N) b hb (n % 4 + 1) hj4 hj.symm r s)
        (fun s h => Vt_blk m c hr (⟨n + 1, hn⟩ : Fin cfg0.N) b hb (n % 4 + 1) hj4 hj.symm s h)
        (outsAt0 m c n (Nat.lt_of_succ_lt hn)).2.1 (outsAt0 m c n (Nat.lt_of_succ_lt hn)).2.2.1 (outsAt0 m c n (Nat.lt_of_succ_lt hn)).2.2.2
        (inv hr n (Nat.lt_of_succ_lt hn) b (by rw [hb]; show (n + 1) / 4 = n / 4; omega) r)

/-- So the output block stored at a batch's last tile is the specification's block of that batch. -/
theorem out_entry (hr : RealArgs m c) (n : ℕ) (hn : n + 1 < cfg0.N) (h1 : (n + 1) % 4 = 3) (b : Fin 8) (hb : b.val = (n + 1) / 4)
    (u : Fin 1) (r h : Fin 64) :
    ((outsAt0 m c (n + 1) hn).1 : Vec Ideal S1x64x64 .f32) (ix3 u r h) = G (aX m c) (aL m c) (aQ m c) (aK m c) (aV m c) (ix3 b r h) := by
  have h0 : ¬(n + 1) % 4 = 0 := by omega
  have hI := inv m c hr (n + 1) hn b hb r
  obtain ⟨e0, e1, e2⟩ := state_later m c n hn h0
  rw [e0, e1, e2, h1, seen_three] at hI
  rw [state_out m c n hn h0 h1]
  exact output _ _ (iblk m c 0 (⟨n + 1, hn⟩ : Fin cfg0.N)) (iblk m c 1 (⟨n + 1, hn⟩ : Fin cfg0.N)) (iblk m c 2 (⟨n + 1, hn⟩ : Fin cfg0.N)) Finset.univ Finset.univ_nonempty (outsAt0 m c n (Nat.lt_of_succ_lt hn)).2.1 (outsAt0 m c n (Nat.lt_of_succ_lt hn)).2.2.1 (outsAt0 m c n (Nat.lt_of_succ_lt hn)).2.2.2 r hI u h

end Cert.KernelIdeal.Run
end
-- ==== Proof.KernelFinal.lean ====
/-
  From the blocks to the array.

  The result array has shape [8, 64, 64] and is written in eight blocks of shape [1, 64, 64]: over the grid of
  8 × 4 points, numbered t = 4b + s, the block index of the result at point t is (t / 4, 0, 0) = (b, 0, 0), and the
  block is written back at the points with t mod 4 = 3 only, that is once per b, after the last of its four steps.
  Entry (u, r, h) of the block at point t sits at (t / 4 · 1 + u, 0 · 64 + r, 0 · 64 + h) of the array. So if what
  the point 4b + 3 leaves for the block is, entry by entry, a whole-array function at (b, r, h), then each write-back
  writes a block of that function; and every index (b, r, h) of the array lies in the block written at the point
  4b + 3, so after the run the array is that function.
-/
import proofs.«161483_j62869731279276_2_alg».proof.Proof.Gen.KernelIdeal.Value
import Idealize.ShloMosaic.Lib.Pipeline.Value
import Idealize.ShloMosaic.Lib.ValueIdx

noncomputable section

namespace Cert.KernelIdeal.Final

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The output window's block index at grid point t is (t / 4, 0, 0). -/
theorem idx_facts : ∀ t : Fin cfg0.N, win0_3.index t (0 : Fin 3) = t.val / 4 ∧ win0_3.index t (1 : Fin 3) = 0
    ∧ win0_3.index t (2 : Fin 3) = 0 :=
  (by decide +kernel : ∀ t : Fin grid0.N, win0_3.index t (0 : Fin 3) = t.val / 4 ∧ win0_3.index t (1 : Fin 3) = 0
    ∧ win0_3.index t (2 : Fin 3) = 0)

/-- What a writing point t = 4b + 3 writes back is block b of the whole-array function: entry (u, r, h) of the block
    sits at (t / 4 · 1 + u, 0 · 64 + r, 0 · 64 + h) = (b, r, h) of the array. -/
theorem flushed_eq (c : Dev nD) (Gf : Vec F S8x64x64 .f32)
    (hout : ∀ (t : Fin cfg0.N) (h3 : t.val % 4 = 3) (u : Fin 1) (r h : Fin 64),
        ((outsAt0 m c t.val t.isLt).1 : Vec F S1x64x64 .f32) (ValueIdx.ix3 u r h)
          = Gf (ValueIdx.ix3 (⟨t.val / 4, by have := t.isLt; have : cfg0.N = 32 := N_0; omega⟩ : Fin 8) r h))
    (t : Fin cfg0.N) (hf : (cfg0.win 3).flush t = true) :
    (dats m 0 c).flushed 3 t = ((cfg0.win 3).blk t).view.read (Elt F) Gf := by
  have h3 : t.val % 4 = 3 := (flush0_3 t).mp hf
  rw [Value.flushed3]
  funext y
  rw [View.read_apply]
  have y0 : (y 0).val < 1 := (y 0).isLt
  have y1 : (y 1).val < 64 := (y 1).isLt
  have y2 : (y 2).val < 64 := (y 2).isLt
  obtain ⟨e0, e1, e2⟩ := idx_facts t
  have hx : (cfg0.win 3).xinj (grid0.coords t) y
      = ValueIdx.ix3 (⟨(y 0).val, y0⟩ : Fin 1) (⟨(y 1).val, y1⟩ : Fin 64) (⟨(y 2).val, y2⟩ : Fin 64) :=
    funext fun a => Fin.ext (by
      match a with
      | ⟨0, _⟩ => rfl
      | ⟨1, _⟩ => rfl
      | ⟨2, _⟩ => rfl)
  have he : ((cfg0.win 3).blk t).view.emb y
      = ValueIdx.ix3 (⟨t.val / 4, by have := t.isLt; have : cfg0.N = 32 := N_0; omega⟩ : Fin 8)
          (⟨(y 1).val, y1⟩ : Fin 64) (⟨(y 2).val, y2⟩ : Fin 64) :=
    funext fun a => Fin.ext (by
      match a with
      | ⟨0, _⟩ => show win0_3.index t (0 : Fin 3) * 1 + 1 * (y 0).val = t.val / 4; omega
      | ⟨1, _⟩ => show win0_3.index t (1 : Fin 3) * 64 + 1 * (y 1).val = (y 1).val; omega
      | ⟨2, _⟩ => show win0_3.index t (2 : Fin 3) * 64 + 1 * (y 2).val = (y 2).val; omega)
  show (outsAt0 m c t.val t.isLt).1 ((cfg0.win 3).xinj (grid0.coords t) y) = Gf (((cfg0.win 3).blk t).view.emb y)
  rw [hx, he]
  exact hout t h3 _ _ _

/-- The eight blocks cover the array: (b, r, h) lies in the block written at the point 4b + 3. So after the run the
    array is the whole-array function. -/
theorem final_of (c : Dev nD) (Gf : Vec F S8x64x64 .f32)
    (hout : ∀ (t : Fin cfg0.N) (h3 : t.val % 4 = 3) (u : Fin 1) (r h : Fin 64),
        ((outsAt0 m c t.val t.isLt).1 : Vec F S1x64x64 .f32) (ValueIdx.ix3 u r h)
          = Gf (ValueIdx.ix3 (⟨t.val / 4, by have := t.isLt; have : cfg0.N = 32 := N_0; omega⟩ : Fin 8) r h)) :
    (dats m 0 c).arrAt 3 cfg0.N = Gf :=
  (dats m 0 c).arrAt_eq_of_cover 3 Gf (flushed_eq m c Gf hout) fun i => by
    have hN : cfg0.N = 32 := N_0
    have i0 : (i 0).val < 8 := (i 0).isLt
    have i1 : (i 1).val < 64 := (i 1).isLt
    have i2 : (i 2).val < 64 := (i 2).isLt
    obtain ⟨t, ht⟩ : ∃ t : Fin cfg0.N, t.val = 4 * (i 0).val + 3 := ⟨⟨4 * (i 0).val + 3, by omega⟩, rfl⟩
    obtain ⟨e0, e1, e2⟩ := idx_facts t
    refine ⟨t, (flush0_3 t).mpr (by omega), ?_⟩
    show i ∈ ((View.whole main_v2).slice (win0_3.rect t)).set
    rw [View.set_slice_whole, Rect.mem_set_unit]
    intro a
    match a with
    | ⟨0, _⟩ =>
      show win0_3.index t (0 : Fin 3) * 1 ≤ (i 0).val ∧ (i 0).val < win0_3.index t (0 : Fin 3) * 1 + 1
      omega
    | ⟨1, _⟩ =>
      show win0_3.index t (1 : Fin 3) * 64 ≤ (i 1).val ∧ (i 1).val < win0_3.index t (1 : Fin 3) * 64 + 64
      omega
    | ⟨2, _⟩ =>
      show win0_3.index t (2 : Fin 3) * 64 ≤ (i 2).val ∧ (i 2).val < win0_3.index t (2 : Fin 3) * 64 + 64
      omega

end Cert.KernelIdeal.Final

end
-- ==== Proof.KernelValue.lean ====
/-
  The kernel's result array after the run: every batch's block is the specification's.
-/
import proofs.«161483_j62869731279276_2_alg».proof.Proof.KernelRun
import proofs.«161483_j62869731279276_2_alg».proof.Proof.KernelFinal

noncomputable section

open Idealize.ShloMosaic Idealize.ShloMosaic.ValueIdx Idealize.ShloMosaic.TcCoe Idealize.SL.Sem

namespace Cert.KernelIdeal.Run

open Cert.KernelIdeal Cert.KernelIdeal.Gen Cert.Attn

variable (m : (ℓ : Loc nD τ sig) → Buf (Elt Ideal) ℓ) (ρ : Dev nD → PrngReg) (c : Dev nD)

/-- The result array is the attention of the argument arrays: batch b's block is what the batch's last tile stored. -/
theorem final (hr : RealArgs m c) :
    (dats m 0 c).arrAt 3 cfg0.N = G (aX m c) (aL m c) (aQ m c) (aK m c) (aV m c) :=
  Cert.KernelIdeal.Final.final_of m c _ (fun t h3 u r h => by
    obtain ⟨tv, ht⟩ := t
    cases tv with
    | zero => exact absurd h3 (show ¬(0 % 4 = 3) by decide)
    | succ n => exact out_entry m c hr n ht h3 _ rfl u r h)

/-- The run: the result at the specification, the arguments unchanged. -/
theorem run (hr : ∀ c, RealArgs m c) : θ_run defs (onTc (τ := τ) (main (F := Ideal))) ⟨m, fun _ => 0, ρ⟩ fun r => ∀ c : Dev nD,
      r.2.mem ((c : Thread nD τ).loc main_v2) = G (aX m c) (aL m c) (aQ m c) (aK m c) (aV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c (hr c)), (h c).2⟩) (Cert.KernelIdeal.Value.run_blocks m ρ)

end Cert.KernelIdeal.Run

end
-- ==== Proof.lean ====
/- The five claims for the latent cross-attention kernel: a running softmax over four sequence tiles per batch, with
   the key projection folded into the query, against the reference's whole-row softmax. The three frames are the
   generated ones (the reference's is its run with the result dropped); the ideal pass rewrote nothing; and at the
   ideal values both programs end at the attention quotient of the argument arrays, which are real by the
   precondition: the kernel's result array block by block from the run of its carried buffers, the reference's result
   operation by operation. -/
import proofs.«161483_j62869731279276_2_alg».proof.Defs
import proofs.«161483_j62869731279276_2_alg».proof.Proof.Gen.Kernel
import proofs.«161483_j62869731279276_2_alg».proof.Proof.Gen.Kernel.Skeleton
import proofs.«161483_j62869731279276_2_alg».proof.Proof.Gen.Kernel.Launch
import proofs.«161483_j62869731279276_2_alg».proof.Proof.Gen.Kernel.Points
import proofs.«161483_j62869731279276_2_alg».proof.Proof.Gen.Kernel.Frame
import proofs.«161483_j62869731279276_2_alg».proof.Proof.Gen.KernelIdeal
import proofs.«161483_j62869731279276_2_alg».proof.Proof.Gen.KernelIdeal.Skeleton
import proofs.«161483_j62869731279276_2_alg».proof.Proof.Gen.KernelIdeal.Launch
import proofs.«161483_j62869731279276_2_alg».proof.Proof.Gen.KernelIdeal.Points
import proofs.«161483_j62869731279276_2_alg».proof.Proof.Gen.KernelIdeal.Frame
import proofs.«161483_j62869731279276_2_alg».proof.Proof.Gen.KernelIdeal.Value
import proofs.«161483_j62869731279276_2_alg».proof.Proof.Gen.ReferenceIdeal
import proofs.«161483_j62869731279276_2_alg».proof.Proof.Gen.ReferenceIdeal.Run
import proofs.«161483_j62869731279276_2_alg».proof.Proof.Gen.ReferenceIdeal.Read
import proofs.«161483_j62869731279276_2_alg».proof.Proof.Gen.Pre_finite_inputs
import proofs.«161483_j62869731279276_2_alg».proof.Proof.Finite
import proofs.«161483_j62869731279276_2_alg».proof.Proof.Reference
import proofs.«161483_j62869731279276_2_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Under the precondition the five argument arrays hold real numbers. -/
theorem real_args (m : (ℓ : Loc Cert.KernelIdeal.nD Cert.KernelIdeal.τ Cert.KernelIdeal.sig) → Buf (Elt Ideal) ℓ)
    (h : Cert.Pre_KernelIdeal m) (c : Dev Cert.KernelIdeal.nD) : Cert.KernelIdeal.Run.RealArgs m c := by
  obtain ⟨a0, a1, a2, a3, a4⟩ := Cert.Finite.real_of_pre _ _ _ _ _ (h c)
  exact ⟨a0, a1, a2, a3, a4⟩

/-- Both programs end at the attention quotient of arguments that agree. -/
theorem algebraic : Cert.algebraic_KernelIdeal_ReferenceIdeal := by
  intro m ρ m' ρ' hpre hagree
  have hr := real_args m hpre
  refine ⟨fun c => Cert.Attn.G (Cert.KernelIdeal.Run.aX m c) (Cert.KernelIdeal.Run.aL m c) (Cert.KernelIdeal.Run.aQ m c)
    (Cert.KernelIdeal.Run.aK m c) (Cert.KernelIdeal.Run.aV m c), Cert.KernelIdeal.Run.run m ρ hr, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2.1, (hagree c).2.2.1, (hagree c).2.2.2.1, (hagree c).2.2.2.2]
  exact Cert.RefBridge.ref_eq _ _ _ _ _ (hr c).hX (hr c).hL (hr c).hQ (hr c).hK (hr c).hV

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
